-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128 .f32) (main_arg10 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x800000 32) (main_arg2 : IVec S100000 32) (main_arg3 : FVec F S64x128 .f32) (main_arg4 : FVec F S128 .f32) (main_arg5 : FVec F S128x128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S100000x1 : Shape := ⟨2, ![100000, 1]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S800000x128 : Shape := ⟨2, ![800000, 128]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 81
  | .vmem => 36
  | .smem => 0
  | _ => 0

abbrev bufTy : (tb : Table) → Fin (tcTables nBuf tb) → BufTy
  | .hbm, ⟨0, _⟩ => ⟨S100000x64, .f32⟩
  | .hbm, ⟨1, _⟩ => ⟨S2x800000, .i32⟩
  | .hbm, ⟨2, _⟩ => ⟨S100000, .i32⟩
  | .hbm, ⟨3, _⟩ => ⟨S64x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S100000, .f32⟩
  | .hbm, ⟨19, _⟩ => ⟨S800000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S100000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S800000x128, .f32⟩
  | .hbm, ⟨38, _⟩ => ⟨S_, .f32⟩
  | .hbm, ⟨39, _⟩ => ⟨S100000x128, .f32⟩
  | .hbm, ⟨40, _⟩ => ⟨S800000x1, .i32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x128, .bf16⟩
  | .hbm, ⟨54, _⟩ => ⟨S800000x128, .f32⟩
  | .hbm, ⟨55, _⟩ => ⟨S_, .f32⟩
  | .hbm, ⟨56, _⟩ => ⟨S100000x128, .f32⟩
  | .hbm, ⟨57, _⟩ => ⟨S800000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S_, .f32⟩
  | .hbm, ⟨62, _⟩ => ⟨S256x128, .f32⟩
  | .hbm, ⟨63, _⟩ => ⟨S100000x1, .i32⟩
  | .hbm, ⟨64, _⟩ => ⟨S256x128, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S256, .f32⟩
  | .hbm, ⟨69, _⟩ => ⟨S100000x1, .i32⟩
  | .hbm, ⟨70, _⟩ => ⟨S256, .f32⟩
  | .hbm, ⟨71, _⟩ => ⟨S_, .f32⟩
  | .hbm, ⟨72, _⟩ => ⟨S256, .f32⟩
  | .hbm, ⟨73, _⟩ => ⟨S256, .f32⟩
  | .hbm, ⟨74, _⟩ => ⟨S256x1, .f32⟩
  | .hbm, ⟨75, _⟩ => ⟨S256x128, .f32⟩
  | .hbm, ⟨76, _⟩ => ⟨S256x128, .f32⟩
  | .hbm, ⟨77, _⟩ => ⟨S1x128, .f32⟩
  | .hbm, ⟨78, _⟩ => ⟨S1x128, .f32⟩
  | .hbm, ⟨79, _⟩ => ⟨S1x128, .f32⟩
  | .hbm, ⟨80, _⟩ => ⟨S256x128, .f32⟩
  | .local _ .vmem, ⟨0, _⟩ => ⟨S4000x64, .f32⟩
  | .local _ .vmem, ⟨1, _⟩ => ⟨S4000x64, .f32⟩
  | .local _ .vmem, ⟨2, _⟩ => ⟨S64x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .bf16⟩
  | .local _ .vmem, ⟨8, _⟩ => ⟨S4000x128, .bf16⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S1x128, .f32⟩
  | .local _ .vmem, ⟨16, _⟩ => ⟨S128x128, .f32⟩
  | .local _ .vmem, ⟨17, _⟩ => ⟨S4000x128, .f32⟩
  | .local _ .vmem, ⟨18, _⟩ => ⟨S4000x128, .f32⟩
  | .local _ .vmem, ⟨19, _⟩ => ⟨S4000x128, .bf16⟩
  | .local _ .vmem, ⟨20, _⟩ => ⟨S4000x128, .bf16⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x1, .f32⟩
  | .local _ .vmem, ⟨26, _⟩ => ⟨S4000x1, .f32⟩
  | .local _ .vmem, ⟨27, _⟩ => ⟨S1x128, .f32⟩
  | .local _ .vmem, ⟨28, _⟩ => ⟨S4000x128, .f32⟩
  | .local _ .vmem, ⟨29, _⟩ => ⟨S4000x128, .f32⟩
  | .local _ .vmem, ⟨30, _⟩ => ⟨S256x128, .f32⟩
  | .local _ .vmem, ⟨31, _⟩ => ⟨S128x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S256x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25_0 : Ref sig .tc := ⟨.hbm, 43, rfl⟩
abbrev main_v25_1 : Ref sig .tc := ⟨.hbm, 44, rfl⟩
abbrev main_c_4 : Ref sig .tc := ⟨.hbm, 45, rfl⟩
abbrev main_v26 : Ref sig .tc := ⟨.hbm, 46, rfl⟩
abbrev main_v27 : Ref sig .tc := ⟨.hbm, 47, rfl⟩
abbrev main_c_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4000x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S4000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S256x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  shapeCasts_S100000_S100000x1 : S100000.ShapeCasts S100000x1
  inb_S4000x64_S4000x64_0_0 : ∀ a, (![0, 0] : Fin 2 → Nat) a + S4000x64.size a ≤ S4000x64.size a
  h_S4000x64 : 0 < S4000x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  bcast_S_S256x128 : S_.BroadcastsInDim S256x128 (![] : Fin 0 → Fin S256x128.rank)
  bcast_S100000_S100000x1_0 : S100000.BroadcastsInDim S100000x1 (![0] : Fin 1 → Fin S100000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  inb_S256x128_S256x128_0_0 : ∀ a, (![0, 0] : Fin 2 → Nat) a + S256x128.size a ≤ S256x128.size a
  h_S256x128 : 0 < S256x128.numel
  shapeCasts_S256x128_S256x128 : S256x128.ShapeCasts S256x128
  broadcasts_S1x128_S256x128 : S1x128.Broadcasts S256x128
  reduces_S256x128_S256 : S256x128.Reduces [1] S256
  shapeCasts_S256_S256x1 : S256.ShapeCasts S256x1
  broadcasts_S256x1_S256x128 : S256x1.Broadcasts S256x128
  scatter_S100000_S800000x1_S800000_n_0_0_1_wf : ScatterDims.WF S100000 S800000x1 S800000 [] [0] [0] 1
  dot_S4000x64_S64x128_S4000x128_1_0_0_1_n_n_wf : DotDims.WF S4000x64 S64x128 S4000x128 [1] [0] [0] [1] [] []
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S4000x128_S128x128_S4000x128_1_0_0_1_n_n_wf : DotDims.WF S4000x128 S128x128 S4000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .bf16 = 32 ∨ (Rect.block (s := S100000x128) S4000x128.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x128.size a ≤ S100000x128.size a
  hwx2_4 : ∀ i : grid2.Coords, EltTy.bits .f32 = 32 ∨ (Rect.block (s := S100000x128) S4000x128.size (cc2_transform_4 i) (hinb2_4 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S256x128.size a ≤ S256x128.size a
  hwx3_0 : ∀ i : grid3.Coords, EltTy.bits .f32 = 32 ∨ (Rect.block (s := S256x128) S256x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x128.size a ≤ S256x128.size a
  hwx3_5 : ∀ i : grid3.Coords, EltTy.bits .f32 = 32 ∨ (Rect.block (s := S256x128) S256x128.size (cc3_transform_5 i) (hinb3_5 i)).WholeWords (EltTy.packing .f32)

variable [Facts₀]

def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12_0) S4000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12_1) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v23) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_0) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25_0) S4000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v25_1) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25_0) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v37) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S4000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v50) S256x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v52) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v53) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v54) S256x128.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x800000 : Shape := ⟨2, ![2, 800000]⟩
abbrev S100000 : Shape := ⟨1, ![100000]⟩
abbrev S64x128 : Shape := ⟨2, ![64, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S100000x128 : Shape := ⟨2, ![100000, 128]⟩
abbrev S_ : Shape := ⟨0, ![]⟩
abbrev S800000x1 : Shape := ⟨2, ![800000, 1]⟩
abbrev S800000x128 : Shape := ⟨2, ![800000, 128]⟩
abbrev S100000x1 : Shape := ⟨2, ![100000, 1]⟩
abbrev S1x128 : Shape := ⟨2, ![1, 128]⟩
abbrev S256x128 : Shape := ⟨2, ![256, 128]⟩
abbrev S256 : Shape := ⟨1, ![256]⟩
abbrev S256x1 : Shape := ⟨2, ![256, 1]⟩

abbrev nBuf : Space → Nat
  | .hbm => 178
  | .vmem => 0
  | .smem => 0
  | _ => 0

abbrev hbmTy0_0 (i : Nat) : BufTy := match i % 128 with
  | 0 => ⟨S100000x64, .f32⟩
  | 1 => ⟨S2x800000, .i32⟩
  | 2 => ⟨S100000, .i32⟩
  | 3 => ⟨S64x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S100000x128, .f32⟩
  | 16 => ⟨S_, .f32⟩
  | 17 => ⟨S800000, .f32⟩
  | 18 => ⟨S_, .f32⟩
  | 19 => ⟨S100000, .f32⟩
  | 20 => ⟨S800000x1, .i32⟩
  | 21 => ⟨S100000, .f32⟩
  | 22 => ⟨S_, .f32⟩
  | 23 => ⟨S100000, .f32⟩
  | 24 => ⟨S100000, .f32⟩
  | 25 => ⟨S100000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x1, .f32⟩
  | 55 => ⟨S800000x128, .f32⟩
  | 56 => ⟨S800000x128, .f32⟩
  | 57 => ⟨S_, .f32⟩
  | 58 => ⟨S100000x128, .f32⟩
  | 59 => ⟨S800000x1, .i32⟩
  | 60 => ⟨S100000x128, .f32⟩
  | 61 => ⟨S100000, .f32⟩
  | 62 => ⟨S100000x1, .f32⟩
  | 63 => ⟨S100000x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .f32⟩
  | 74 => ⟨S800000, .f32⟩
  | 75 => ⟨S_, .f32⟩
  | 76 => ⟨S100000, .f32⟩
  | 77 => ⟨S800000x1, .i32⟩
  | 78 => ⟨S100000, .f32⟩
  | 79 => ⟨S_, .f32⟩
  | 80 => ⟨S100000, .f32⟩
  | 81 => ⟨S100000, .f32⟩
  | 82 => ⟨S100000, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000, .f32⟩
  | 101 => ⟨S800000, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x128, .f32⟩
  | 111 => ⟨S800000x1, .f32⟩
  | 112 => ⟨S800000x128, .f32⟩
  | 113 => ⟨S800000x128, .f32⟩
  | 114 => ⟨S_, .f32⟩
  | 115 => ⟨S100000x128, .f32⟩
  | 116 => ⟨S800000x1, .i32⟩
  | 117 => ⟨S100000x128, .f32⟩
  | 118 => ⟨S100000, .f32⟩
  | 119 => ⟨S100000x1, .f32⟩
  | 120 => ⟨S100000x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x64, .f32⟩

abbrev hbmTy0_1 (i : Nat) : BufTy := match i % 128 with
  | 0 => ⟨S100000x128, .f32⟩
  | 1 => ⟨S_, .f32⟩
  | 2 => ⟨S256x128, .f32⟩
  | 3 => ⟨S100000x1, .i32⟩
  | 4 => ⟨S256x128, .f32⟩
  | 5 => ⟨S_, .f32⟩
  | 6 => ⟨S100000, .f32⟩
  | 7 => ⟨S_, .f32⟩
  | 8 => ⟨S256, .f32⟩
  | 9 => ⟨S100000x1, .i32⟩
  | 10 => ⟨S256, .f32⟩
  | 11 => ⟨S_, .f32⟩
  | 12 => ⟨S256, .f32⟩
  | 13 => ⟨S256, .f32⟩
  | 14 => ⟨S256x1, .f32⟩
  | 15 => ⟨S256x128, .f32⟩
  | 16 => ⟨S256x128, .f32⟩
  | 17 => ⟨S256x128, .f32⟩
  | 18 => ⟨S1x128, .f32⟩
  | 19 => ⟨S256x128, .f32⟩
  | 20 => ⟨S256x128, .f32⟩
  | 21 => ⟨S_, .f32⟩
  | 22 => ⟨S256, .f32⟩
  | 23 => ⟨S256x1, .f32⟩
  | 24 => ⟨S_, .f32⟩
  | 25 => ⟨S256x1, .f32⟩
  | 26 => ⟨S256x1, .f32⟩
  | 27 => ⟨S256x128, .f32⟩
  | 28 => ⟨S256x128, .f32⟩
  | 29 => ⟨S256x128, .f32⟩
  | 30 => ⟨S_, .f32⟩
  | 31 => ⟨S256, .f32⟩
  | 32 => ⟨S256x1, .f32⟩
  | 33 => ⟨S_, .f32⟩
  | 34 => ⟨S256x1, .f32⟩
  | 35 => ⟨S256x1, .f32⟩
  | 36 => ⟨S256x128, .f32⟩
  | 37 => ⟨S256x128, .f32⟩
  | 38 => ⟨S_, .f32⟩
  | 39 => ⟨S256x1, .f32⟩
  | 40 => ⟨S256x1, .f32⟩
  | 41 => ⟨S256x1, .f32⟩
  | 42 => ⟨S256x128, .f32⟩
  | 43 => ⟨S256x128, .f32⟩
  | 44 => ⟨S1x128, .f32⟩
  | 45 => ⟨S256x128, .f32⟩
  | 46 => ⟨S256x128, .f32⟩
  | 47 => ⟨S1x128, .f32⟩
  | 48 => ⟨S256x128, .f32⟩
  | 49 => ⟨S256x128, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_c_13 : Ref sig .tc := ⟨.hbm, 92, rfl⟩
abbrev main_v64 : Ref sig .tc := ⟨.hbm, 93, rfl⟩
abbrev main_v65 : Ref sig .tc := ⟨.hbm, 94, rfl⟩
abbrev main_c_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_17 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_call1_cst : Ref sig .tc := ⟨.hbm, 126, rfl⟩
abbrev main_call1_v0 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_19 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_22 : Ref sig .tc := ⟨.hbm, 149, rfl⟩
abbrev main_v110 : Ref sig .tc := ⟨.hbm, 150, rfl⟩
abbrev main_v111 : Ref sig .tc := ⟨.hbm, 151, rfl⟩
abbrev main_cst_23 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_cst_24 : Ref sig .tc := ⟨.hbm, 158, rfl⟩
abbrev main_v117 : Ref sig .tc := ⟨.hbm, 159, rfl⟩
abbrev main_v118 : Ref sig .tc := ⟨.hbm, 160, rfl⟩
abbrev main_cst_25 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_cst_26 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S100000 : S_.BroadcastsInDim S100000 (![] : Fin 0 → Fin S100000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S256x128 : S_.BroadcastsInDim S256x128 (![] : Fin 0 → Fin S256x128.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S1x128_S256x128_0_1 : S1x128.BroadcastsInDim S256x128 (![0, 1] : Fin 2 → Fin S256x128.rank)
  reducesTo_S256x128_S256_d1 : S256x128.ReducesTo [1] S256
  h_S_ : 0 < S_.numel
  bcast_S_S256x1 : S_.BroadcastsInDim S256x1 (![] : Fin 0 → Fin S256x1.rank)
  dot_S100000x64_S64x128_S100000x128_1_0_0_1_n_n_wf : DotDims.WF S100000x64 S64x128 S100000x128 [1] [0] [0] [1] [] []
  scatter_S100000_S800000x1_S800000_n_0_0_1_wf : ScatterDims.WF S100000 S800000x1 S800000 [] [0] [0] 1
  gather_S100000_S800000x1_S800000_n_0_n_n_0_1_1_wf : GatherDims.WF S100000 S800000x1 S800000 [] [0] [] [0] [] 1 ![1]
  gather_S100000x128_S800000x1_S800000x128_1_0_n_n_0_1_1128_wf : GatherDims.WF S100000x128 S800000x1 S800000x128 [1] [0] [] [0] [] 1 ![1, 128]
  scatter_S100000x128_S800000x1_S800000x128_1_0_0_1_wf : ScatterDims.WF S100000x128 S800000x1 S800000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x128_S256x128_1_0_0_1_n_n_wf : DotDims.WF S256x128 S128x128 S256x128 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

class Facts : Prop extends Facts₀ where

variable [Facts]
-- ==== Proof.KernelRun.lean ====
/-
  The idealized kernel's run with its result named. Every weakly fair execution of @main terminates without a fault
  in a state whose result buffer holds what the last of its four kernel regions leaves there — the contents the
  frame certificate's fold through @main gives that buffer at the last boundary — and whose argument arrays are as
  launched. The launch is the several-regions launch of the frame certificate over the same segments, the final
  state read at one more buffer.
-/
import proofs.«174452_j12352325943369_2_alg».proof.Proof.PatchedKernelIdealFrame

set_option maxRecDepth 16384

noncomputable section

namespace Cert.KernelIdeal.RunValue

open Cert.KernelIdeal Cert.KernelIdeal.Gen Cert.KernelIdeal.GenP

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v54) = W8 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v54 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.KernelIdeal.RunValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«174452_j12352325943369_2_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.GcnSpec.lean ====
/-
  A two-layer graph convolution with mean pooling and a normalised linear head, as whole-array functions on the
  extended reals. A node's row is scaled by one per-node factor (`scaleRows`); a layer's output is the clamped sum
  of the aggregated neighbour rows times the node's factor, the node's own row times the square of its factor, and
  a bias row (`combine`); the head adds a bias row to a product (`biasRows`) and normalises every row by its mean
  and its mean squared deviation, then scales and shifts it entry by entry (`normRows`, `head`).
  Nothing here mentions a program.
-/
import Idealize.ShloMosaic.PureOps.Ideal
import Idealize.ShloMosaic.Lib.ValueIdx
import proofs.«174452_j12352325943369_2_alg».proof.Proof.LibMatProd

open scoped BigOperators

noncomputable section

namespace Cert.Gcn

open Idealize.ShloMosaic Idealize.ShloMosaic.ValueIdx Cert.Lib.MatProd

variable {r n k : Nat}

/-- The word of the single-precision zero, read on the extended reals. -/
def zeroW : EReal := Ideal.ofBits .f32 0x00000000#32

/-- Every entry of row p of an r×n array times entry (p, 0) of an r×1 column of per-row factors. -/
def scaleRows (H : (⟨2, ![r, n]⟩ : Shape).Idx → EReal) (dc : (⟨2, ![r, 1]⟩ : Shape).Idx → EReal) :
    (⟨2, ![r, n]⟩ : Shape).Idx → EReal :=
  fun i => H i * dc (ix2 (i 0) 0)

/-- One layer's output at (p, q): the aggregate A(p, q) times the factor of row p, plus H(p, q) times the square of
    that factor, plus entry q of the bias row, clamped below at the zero word. -/
def combine (A H : (⟨2, ![r, n]⟩ : Shape).Idx → EReal) (dc : (⟨2, ![r, 1]⟩ : Shape).Idx → EReal)
    (b : (⟨2, ![1, n]⟩ : Shape).Idx → EReal) : (⟨2, ![r, n]⟩ : Shape).Idx → EReal :=
  fun i => max ((A i * dc (ix2 (i 0) 0) + H i * (dc (ix2 (i 0) 0) * dc (ix2 (i 0) 0))) + b (ix2 0 (i 1))) zeroW

/-- A 1×n row added to every row of an r×n array. -/
def biasRows (M : (⟨2, ![r, n]⟩ : Shape).Idx → EReal) (b : (⟨2, ![1, n]⟩ : Shape).Idx → EReal) :
    (⟨2, ![r, n]⟩ : Shape).Idx → EReal :=
  fun i => M i + b (ix2 0 (i 1))

/-- The mean of row p of Y, the sum divided by the word c. -/
def rowMean (c : EReal) (Y : (⟨2, ![r, n]⟩ : Shape).Idx → EReal) (p : Fin r) : EReal :=
  Ideal.div (∑ j : Fin n, Y (ix2 p j)) c

/-- The mean squared deviation of row p of Y from its mean. -/
def rowVar (c : EReal) (Y : (⟨2, ![r, n]⟩ : Shape).Idx → EReal) (p : Fin r) : EReal :=
  Ideal.div (∑ j : Fin n, (Y (ix2 p j) - rowMean c Y p) * (Y (ix2 p j) - rowMean c Y p)) c

/-- Every row of Y centred at its mean, divided by the root of its mean squared deviation plus eps, then scaled by
    the row g and shifted by the row be, entry by entry. -/
def normRows (c eps : EReal) (Y : (⟨2, ![r, n]⟩ : Shape).Idx → EReal)
    (g be : (⟨2, ![1, n]⟩ : Shape).Idx → EReal) : (⟨2, ![r, n]⟩ : Shape).Idx → EReal :=
  fun i => ((Y i - rowMean c Y (i 0)) * Ideal.rsqrt (rowVar c Y (i 0) + eps)) * g (ix2 0 (i 1)) + be (ix2 0 (i 1))

/-- The words of 128.0 and of the single-precision 1e-5. -/
def c128 : EReal := Ideal.ofBits .f32 0x43000000#32
def epsW : EReal := Ideal.ofBits .f32 0x3727C5AC#32

/-- The head: P·W plus a bias row, every row normalised, scaled and shifted. -/
def head (P : (⟨2, ![r, k]⟩ : Shape).Idx → EReal) (W : (⟨2, ![k, n]⟩ : Shape).Idx → EReal)
    (b g be : (⟨2, ![1, n]⟩ : Shape).Idx → EReal) : (⟨2, ![r, n]⟩ : Shape).Idx → EReal :=
  normRows c128 epsW (biasRows (matProd P W) b) g be

/-- An entry of `scaleRows` depends on one entry of H and one factor. -/
theorem scaleRows_at {r' : Nat} (H : (⟨2, ![r, n]⟩ : Shape).Idx → EReal) (dc : (⟨2, ![r, 1]⟩ : Shape).Idx → EReal)
    (H' : (⟨2, ![r', n]⟩ : Shape).Idx → EReal) (dc' : (⟨2, ![r', 1]⟩ : Shape).Idx → EReal)
    (y : (⟨2, ![r', n]⟩ : Shape).Idx) (i : (⟨2, ![r, n]⟩ : Shape).Idx)
    (hH : H' y = H i) (hd : dc' (ix2 (y 0) 0) = dc (ix2 (i 0) 0)) :
    scaleRows H' dc' y = scaleRows H dc i := by
  unfold scaleRows; rw [hH, hd]

/-- An entry of `combine` depends on the same entry of A and of H, one factor and one bias entry. -/
theorem combine_at {r' : Nat} (A H : (⟨2, ![r, n]⟩ : Shape).Idx → EReal) (dc : (⟨2, ![r, 1]⟩ : Shape).Idx → EReal)
    (b b' : (⟨2, ![1, n]⟩ : Shape).Idx → EReal)
    (A' H' : (⟨2, ![r', n]⟩ : Shape).Idx → EReal) (dc' : (⟨2, ![r', 1]⟩ : Shape).Idx → EReal)
    (y : (⟨2, ![r', n]⟩ : Shape).Idx) (i : (⟨2, ![r, n]⟩ : Shape).Idx)
    (hA : A' y = A i) (hH : H' y = H i) (hd : dc' (ix2 (y 0) 0) = dc (ix2 (i 0) 0))
    (hb : b' (ix2 0 (y 1)) = b (ix2 0 (i 1))) :
    combine A' H' dc' b' y = combine A H dc b i := by
  unfold combine; rw [hA, hH, hd, hb]

end Cert.Gcn

end
-- ==== Proof.KernelStages.lean ====
/-
  The idealized kernel program as functions of its argument arrays, stage by stage: the source and destination words
  of the edges, the per-node factors d = 1/√(in-degree + 1) laid out as a column, the aggregate of gathered rows, the
  two layers, the mean pool and the head. Each definition is the program's own host operations (or a region's
  whole-array function) applied to the previous stages.
-/
import proofs.«174452_j12352325943369_2_alg».proof.Proof.PatchedKernelIdealFrame
import proofs.«174452_j12352325943369_2_alg».proof.Proof.GcnSpec
import proofs.«174452_j12352325943369_2_alg».proof.Proof.LibMatProd

set_option maxRecDepth 16384

noncomputable section

namespace Cert.KernelIdeal.Stages

open Cert.KernelIdeal Cert.KernelIdeal.Gen Cert.KernelIdeal.GenP Idealize.ShloMosaic Idealize.ShloMosaic.TcCoe Idealize.SL.Sem
open Idealize.ShloMosaic.ValueIdx
open Cert.Lib.MatProd Cert.Gcn

/-- The source words of the edges. -/
def kSrc (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The destination words of the edges. -/
def kDst (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- The destination words as a column. -/
def kDstCol (x1 : (⟨S2x800000, .i32⟩ : BufTy).Contents (Elt Ideal)) : (⟨S800000x1, .i32⟩ : BufTy).Contents (Elt Ideal) :=
  broadcastInDim S800000x1 ![0] bcast_S800000_S800000x1_0 (kDst x1)

/-- The source words, a negative word counted back from the end, as a column. -/
def kSrcCol (x1 : (⟨S2x800000, .i32⟩ : BufTy).Contents (Elt Ideal)) : (⟨S800000x1, .i32⟩ : BufTy).Contents (Elt Ideal) :=
  broadcastInDim S800000x1 ![0] bcast_S800000_S800000x1_0
    (select (cmpi .slt (kSrc x1) (broadcastInDim S800000 ![] bcast_S_S800000 (constantI S_ 32 0#32)))
      (addi (kSrc x1) (broadcastInDim S800000 ![] bcast_S_S800000 (constantI S_ 32 100000#32))) (kSrc x1))

/-- The factors d = 1/√(number of edges into the node + 1), as a vector. -/
def kDvec (x1 : (⟨S2x800000, .i32⟩ : BufTy).Contents (Elt Ideal)) : (⟨S100000, .f32⟩ : BufTy).Contents (Elt Ideal) :=
  Host.rsqrt (addf (Host.scatterAdd scatter_S100000_S800000x1_S800000_n_0_0_1
      (broadcastInDim S100000 ![] bcast_S_S100000 (constant (F := Ideal) S_ .f32 0x00000000#32)) (kDstCol x1)
      (broadcastInDim S800000 ![] bcast_S_S800000 (constant (F := Ideal) S_ .f32 0x3F800000#32)))
    (broadcastInDim S100000 ![] bcast_S_S100000 (constant (F := Ideal) S_ .f32 0x3F800000#32)))

/-- The factors as a column. -/
def kDcol (x1 : (⟨S2x800000, .i32⟩ : BufTy).Contents (Elt Ideal)) : (⟨S100000x1, .f32⟩ : BufTy).Contents (Elt Ideal) :=
  shapeCast S100000x1 (kDvec x1) shapeCasts_S100000_S100000x1

/-- A vector of 128 entries as a 1×128 row (the program's re-shaping). -/
def kB (x : (⟨S128, .f32⟩ : BufTy).Contents (Elt Ideal)) : (⟨S1x128, .f32⟩ : BufTy).Contents (Elt Ideal) := shapeCast S1x128 x shapeCasts_S128_S1x128

/-- The rows of HS gathered at the source words and added into the rows the destination words read, from zeros. -/
def kAgg (HS : (⟨S100000x128, .bf16⟩ : BufTy).Contents (Elt Ideal)) (x1 : (⟨S2x800000, .i32⟩ : BufTy).Contents (Elt Ideal)) : (⟨S100000x128, .f32⟩ : BufTy).Contents (Elt Ideal) :=
  Host.scatterAdd scatter_S100000x128_S800000x1_S800000x128_1_0_0_1
    (broadcastInDim S100000x128 ![] bcast_S_S100000x128 (constant (F := Ideal) S_ .f32 0x00000000#32)) (kDstCol x1)
    (extf .f32 (Host.gather gather_S100000x128_S800000x1_S800000x128_1_0_n_n_0_1_1128 HS (kSrcCol x1)) bitsLt_bf16_f32)

/-- First layer: x·W1, its rows scaled by d, and the layer's output. -/
def kH1 (x0 : (⟨S100000x64, .f32⟩ : BufTy).Contents (Elt Ideal)) (x3 : (⟨S64x128, .f32⟩ : BufTy).Contents (Elt Ideal)) : (⟨S100000x128, .f32⟩ : BufTy).Contents (Elt Ideal) := matProd x0 x3
def kHS1 (x0 : (⟨S100000x64, .f32⟩ : BufTy).Contents (Elt Ideal)) (x1 : (⟨S2x800000, .i32⟩ : BufTy).Contents (Elt Ideal)) (x3 : (⟨S64x128, .f32⟩ : BufTy).Contents (Elt Ideal)) :
    (⟨S100000x128, .bf16⟩ : BufTy).Contents (Elt Ideal) := scaleRows (kH1 x0 x3) (kDcol x1)
def kC1 (x0 : (⟨S100000x64, .f32⟩ : BufTy).Contents (Elt Ideal)) (x1 : (⟨S2x800000, .i32⟩ : BufTy).Contents (Elt Ideal)) (x3 : (⟨S64x128, .f32⟩ : BufTy).Contents (Elt Ideal))
    (x4 : (⟨S128, .f32⟩ : BufTy).Contents (Elt Ideal)) : (⟨S100000x128, .f32⟩ : BufTy).Contents (Elt Ideal) :=
  combine (kAgg (kHS1 x0 x1 x3) x1) (kH1 x0 x3) (kDcol x1) (kB x4)

/-- Second layer. -/
def kH2 (x0 : (⟨S100000x64, .f32⟩ : BufTy).Contents (Elt Ideal)) (x1 : (⟨S2x800000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal)) : (⟨S100000x128, .f32⟩ : BufTy).Contents (Elt Ideal) :=
  matProd (kC1 x0 x1 x3 x4) x5
def kHS2 (x0 : (⟨S100000x64, .f32⟩ : BufTy).Contents (Elt Ideal)) (x1 : (⟨S2x800000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal)) : (⟨S100000x128, .bf16⟩ : BufTy).Contents (Elt Ideal) :=
  scaleRows (kH2 x0 x1 x3 x4 x5) (kDcol x1)
def kC2 (x0 : (⟨S100000x64, .f32⟩ : BufTy).Contents (Elt Ideal)) (x1 : (⟨S2x800000, .i32⟩ : BufTy).Contents (Elt Ideal)) (x3 : (⟨S64x128, .f32⟩ : BufTy).Contents (Elt Ideal))
    (x4 : (⟨S128, .f32⟩ : BufTy).Contents (Elt Ideal)) (x5 : (⟨S128x128, .f32⟩ : BufTy).Contents (Elt Ideal)) (x6 : (⟨S128, .f32⟩ : BufTy).Contents (Elt Ideal)) : (⟨S100000x128, .f32⟩ : BufTy).Contents (Elt Ideal) :=
  combine (kAgg (kHS2 x0 x1 x3 x4 x5) x1) (kH2 x0 x1 x3 x4 x5) (kDcol x1) (kB x6)

/-- The mean pool: the rows of C added per graph, divided by the number of nodes of the graph joined with one. -/
def kPool (x2 : (⟨S100000, .i32⟩ : BufTy).Contents (Elt Ideal)) (C : (⟨S100000x128, .f32⟩ : BufTy).Contents (Elt Ideal)) : (⟨S256x128, .f32⟩ : BufTy).Contents (Elt Ideal) :=
  Host.divf
    (Host.scatterAdd scatter_S256x128_S100000x1_S100000x128_1_0_0_1
      (broadcastInDim S256x128 ![] bcast_S_S256x128 (constant (F := Ideal) S_ .f32 0x00000000#32))
      (broadcastInDim S100000x1 ![0] bcast_S100000_S100000x1_0 x2) C)
    (broadcastInDim S256x128 ![0, 1] bcast_S256x1_S256x128_0_1
      (broadcastInDim S256x1 ![0] bcast_S256_S256x1_0
        (maximumf
          (Host.scatterAdd scatter_S256_S100000x1_S100000_n_0_0_1
            (broadcastInDim S256 ![] bcast_S_S256 (constant (F := Ideal) S_ .f32 0x00000000#32))
            (broadcastInDim S100000x1 ![0] bcast_S100000_S100000x1_0 x2)
            (broadcastInDim S100000 ![] bcast_S_S100000 (constant (F := Ideal) S_ .f32 0x3F800000#32)))
          (broadcastInDim S256 ![] bcast_S_S256 (constant (F := Ideal) S_ .f32 0x3F800000#32)))))

/-- The program's result as a function of its eleven arguments. -/
def kOut (x0 : (⟨S100000x64, .f32⟩ : BufTy).Contents (Elt Ideal)) (x1 : (⟨S2x800000, .i32⟩ : BufTy).Contents (Elt Ideal)) (x2 : (⟨S100000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal)) : (⟨S256x128, .f32⟩ : BufTy).Contents (Elt Ideal) :=
  head (kPool x2 (kC2 x0 x1 x3 x4 x5 x6)) x7 (kB x8) (kB x9) (kB x10)

variable (m : (ℓ : Loc nD τ sig) → Buf (Elt Ideal) ℓ) (ρ : Dev nD → PrngReg)

theorem W1_v1 (c : Dev nD) : W1 m ρ c (Proc.devRef .tc main_v1) = kSrc (m ((c : Thread nD τ).loc main_arg1)) := by
  show StableHlo.after hostOps0 (W0 m ρ c) (Proc.devRef .tc main_v1) = _
  dsimp only [hostOps0]
  after_results_simp
  rfl

theorem W1_v3 (c : Dev nD) : W1 m ρ c (Proc.devRef .tc main_v3) = kDst (m ((c : Thread nD τ).loc main_arg1)) := by
  show StableHlo.after hostOps0 (W0 m ρ c) (Proc.devRef .tc main_v3) = _
  dsimp only [hostOps0]
  after_results_simp
  rfl

theorem W1_v11 (c : Dev nD) : W1 m ρ c (Proc.devRef .tc main_v11) = kDcol (m ((c : Thread nD τ).loc main_arg1)) := by
  show StableHlo.after hostOps0 (W0 m ρ c) (Proc.devRef .tc main_v11) = _
  dsimp only [hostOps0]
  after_results_simp
  rfl

theorem W1_arg0 (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results_simp
  try rfl

theorem W1_arg2 (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results_simp
  try rfl

theorem W1_arg3 (c : Dev nD) : W1 m ρ c (Proc.devRef .tc main_arg3) = (m ((c : Thread nD τ).loc main_arg3)) := by
  show StableHlo.after hostOps0 (W0 m ρ c) (Proc.devRef .tc main_arg3) = _
  dsimp only [hostOps0]
  after_results_simp
  try rfl

theorem W1_arg4 (c : Dev nD) : W1 m ρ c (Proc.devRef .tc main_arg4) = (m ((c : Thread nD τ).loc main_arg4)) := by
  show StableHlo.after hostOps0 (W0 m ρ c) (Proc.devRef .tc main_arg4) = _
  dsimp only [hostOps0]
  after_results_simp
  try rfl

theorem W1_arg5 (c : Dev nD) : W1 m ρ c (Proc.devRef .tc main_arg5) = (m ((c : Thread nD τ).loc main_arg5)) := by
  show StableHlo.after hostOps0 (W0 m ρ c) (Proc.devRef .tc main_arg5) = _
  dsimp only [hostOps0]
  after_results_simp
  try rfl

theorem W1_arg6 (c : Dev nD) : W1 m ρ c (Proc.devRef .tc main_arg6) = (m ((c : Thread nD τ).loc main_arg6)) := by
  show StableHlo.after hostOps0 (W0 m ρ c) (Proc.devRef .tc main_arg6) = _
  dsimp only [hostOps0]
  after_results_simp
  try rfl

theorem W1_arg7 (c : Dev nD) : W1 m ρ c (Proc.devRef .tc main_arg7) = (m ((c : Thread nD τ).loc main_arg7)) := by
  show StableHlo.after hostOps0 (W0 m ρ c) (Proc.devRef .tc main_arg7) = _
  dsimp only [hostOps0]
  after_results_simp
  try rfl

theorem W1_arg8 (c : Dev nD) : W1 m ρ c (Proc.devRef .tc main_arg8) = (m ((c : Thread nD τ).loc main_arg8)) := by
  show StableHlo.after hostOps0 (W0 m ρ c) (Proc.devRef .tc main_arg8) = _
  dsimp only [hostOps0]
  after_results_simp
  try rfl

theorem W1_arg9 (c : Dev nD) : W1 m ρ c (Proc.devRef .tc main_arg9) = (m ((c : Thread nD τ).loc main_arg9)) := by
  show StableHlo.after hostOps0 (W0 m ρ c) (Proc.devRef .tc main_arg9) = _
  dsimp only [hostOps0]
  after_results_simp
  try rfl

theorem W1_arg10 (c : Dev nD) : W1 m ρ c (Proc.devRef .tc main_arg10) = (m ((c : Thread nD τ).loc main_arg10)) := by
  show StableHlo.after hostOps0 (W0 m ρ c) (Proc.devRef .tc main_arg10) = _
  dsimp only [hostOps0]
  after_results_simp
  try rfl

end Cert.KernelIdeal.Stages

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.Bodies.lean ====
/-
  The arithmetic of the four kernel bodies, on the extended reals, as functions of whole arrays: a product into
  zeros is the matrix product; a block times a column of per-row factors broadcast across its columns is the row
  scaling; the aggregate times the factor plus the node's own row times the squared factor plus a bias row, clamped
  at the zero word, is the layer's combination; and a product plus a bias row, centred at each row's mean, divided
  by the root of the row's mean squared deviation plus a small word, then scaled and shifted entry by entry, is the
  normalised head. Narrowing an entry's format is the identity on the extended reals, so no rounding appears.
-/
import proofs.«174452_j12352325943369_2_alg».proof.Proof.Gen.KernelIdeal.Skeleton
import proofs.«174452_j12352325943369_2_alg».proof.Proof.GcnSpec
import proofs.«174452_j12352325943369_2_alg».proof.Proof.LibBlockReads
import proofs.«174452_j12352325943369_2_alg».proof.Proof.LibMatProd
import proofs.«174452_j12352325943369_2_alg».proof.Proof.LibRowReductions

open scoped BigOperators

noncomputable section

namespace Cert.KernelIdeal.Bodies

open Cert.KernelIdeal Cert.KernelIdeal.Gen Idealize.ShloMosaic Idealize.ShloMosaic.ValueIdx Cert.Lib.MatProd Cert.Gcn
open Cert.Lib.BlockReads Cert.Lib.RowReductions

/-- The first body's product: the two operands, narrowed entry by entry (the identity here), multiplied into
    zeros. -/
theorem pay0_1 (x0 : Vec Ideal S4000x64 .f32) (x1 : Vec Ideal S64x128 .f32) :
    k0_pay1 (F := Ideal) x0 x1 = matProd x0 x1 := by
  unfold k0_pay1
  exact matmul_zero_eq_matProd _ rfl rfl rfl rfl rfl rfl none _ _

/-- The first body's second output: that product with every row scaled by the row's factor. -/
theorem pay0_2 (x0 : Vec Ideal S4000x64 .f32) (x1 : Vec Ideal S64x128 .f32) (x2 : Vec Ideal S4000x1 .f32) :
    k0_pay2 (F := Ideal) x0 x1 x2 = scaleRows (matProd x0 x1) x2 := by
  funext i
  obtain ⟨p, q, rfl⟩ : ∃ (p : Fin 4000) (q : Fin 128), i = ix2 p q := ⟨i 0, i 1, eq_ix2 i⟩
  unfold k0_pay2
  show k0_pay1 x0 x1 (ix2 p q) * broadcastTo S4000x128 (shapeCast S4000x1 x2 _) _ (ix2 p q) = _
  rw [pay0_1, shapeCast_self, broadcast_col_apply]
  rfl

section Combine
variable {r n : Nat}

/-- The layer's combination read entry by entry: the column of factors and the column of their squares are read at
    the entry's row, the bias row at its column, and the clamp is the maximum with the zero word. -/
theorem combine_body (A H : FVec Ideal ⟨2, ![r, n]⟩ .f32) (d : FVec Ideal ⟨2, ![r, 1]⟩ .f32)
    (b : FVec Ideal ⟨2, ![1, n]⟩ .f32)
    (hc : (⟨2, ![r, 1]⟩ : Shape).Broadcasts ⟨2, ![r, n]⟩) (hr : (⟨2, ![1, n]⟩ : Shape).Broadcasts ⟨2, ![r, n]⟩) :
    maximumf (addf (addf (mulf A (broadcastTo ⟨2, ![r, n]⟩ d hc)) (mulf H (broadcastTo ⟨2, ![r, n]⟩ (mulf d d) hc)))
        (broadcastTo ⟨2, ![r, n]⟩ b hr))
        (broadcast ⟨2, ![r, n]⟩ (Scalar.ofBits (F := Ideal) .f32 0x00000000#32))
      = combine A H d b := by
  funext i
  obtain ⟨p, q, rfl⟩ : ∃ (p : Fin r) (q : Fin n), i = ix2 p q := ⟨i 0, i 1, eq_ix2 i⟩
  show max (A (ix2 p q) * broadcastTo ⟨2, ![r, n]⟩ d hc (ix2 p q)
      + H (ix2 p q) * broadcastTo ⟨2, ![r, n]⟩ (mulf d d) hc (ix2 p q)
      + broadcastTo ⟨2, ![r, n]⟩ b hr (ix2 p q)) _ = _
  rw [broadcast_col_apply, broadcast_col_apply, broadcast_row_apply]
  rfl

end Combine

/-- The third body: the layer's combination of the aggregate, the node's own rows, the factors and the bias row. -/
theorem pay2_1 (x0 x1 : Vec Ideal S4000x128 .f32) (x2 : Vec Ideal S4000x1 .f32) (x3 : Vec Ideal S1x128 .f32) :
    k2_pay1 (F := Ideal) x0 x1 x2 x3 = combine x0 x1 x2 x3 := by
  unfold k2_pay1
  dsimp only
  simp only [shapeCast_self]
  exact combine_body x0 x1 x2 x3 _ _

/-- The second body's product: the layer's combination, narrowed entry by entry (the identity here), times the
    weights, into zeros. -/
theorem pay1_2 (x0 x1 : Vec Ideal S4000x128 .f32) (x2 : Vec Ideal S4000x1 .f32) (x3 : Vec Ideal S1x128 .f32)
    (x4 : Vec Ideal S128x128 .f32) :
    k1_pay2 (F := Ideal) x0 x1 x2 x3 x4 = matProd (combine x0 x1 x2 x3) x4 := by
  unfold k1_pay2 k1_pay1
  dsimp only
  simp only [shapeCast_self]
  rw [combine_body x0 x1 x2 x3 _ _]
  exact matmul_zero_eq_matProd _ rfl rfl rfl rfl rfl rfl none _ _

/-- The second body's second output: that product with every row scaled by the row's factor. -/
theorem pay1_3 (x0 x1 : Vec Ideal S4000x128 .f32) (x2 : Vec Ideal S4000x1 .f32) (x3 : Vec Ideal S1x128 .f32)
    (x4 : Vec Ideal S128x128 .f32) :
    k1_pay3 (F := Ideal) x0 x1 x2 x3 x4 = scaleRows (matProd (combine x0 x1 x2 x3) x4) x2 := by
  funext i
  obtain ⟨p, q, rfl⟩ : ∃ (p : Fin 4000) (q : Fin 128), i = ix2 p q := ⟨i 0, i 1, eq_ix2 i⟩
  unfold k1_pay3
  show k1_pay2 x0 x1 x2 x3 x4 (ix2 p q) * broadcastTo S4000x128 (k1_pay1 x2) _ (ix2 p q) = _
  unfold k1_pay1
  rw [pay1_2, shapeCast_self, broadcast_col_apply]
  rfl

section Head
variable {r n : Nat}

/-- A product plus a bias row broadcast down the rows, entry by entry. -/
theorem bias_body (M : FVec Ideal ⟨2, ![r, n]⟩ .f32) (b : FVec Ideal ⟨2, ![1, n]⟩ .f32)
    (hr : (⟨2, ![1, n]⟩ : Shape).Broadcasts ⟨2, ![r, n]⟩) :
    addf M (broadcastTo ⟨2, ![r, n]⟩ b hr) = biasRows M b := by
  funext i
  obtain ⟨p, q, rfl⟩ : ∃ (p : Fin r) (q : Fin n), i = ix2 p q := ⟨i 0, i 1, eq_ix2 i⟩
  show M (ix2 p q) + broadcastTo ⟨2, ![r, n]⟩ b hr (ix2 p q) = _
  rw [broadcast_row_apply]
  rfl

/-- The column of row sums of a block, each divided by one word, read at row p. -/
theorem mean_col (Z : FVec Ideal ⟨2, ![r, n]⟩ .f32) (c : Ideal .f32) (acc : BitVec (FTy.bits .f32))
    (hred : (⟨2, ![r, n]⟩ : Shape).Reduces [1] ⟨1, ![r]⟩) (hφ : FKind.Formats .f32)
    (hacc : acc = FKind.add.neutral .f32 hφ) (hsc : (⟨1, ![r]⟩ : Shape).ShapeCasts ⟨2, ![r, 1]⟩) (p : Fin r) :
    divf (shapeCast ⟨2, ![r, 1]⟩ (multiReduction (F := Ideal) .add [1] ⟨1, ![r]⟩ Z acc hred hφ hacc) hsc)
        (broadcast ⟨2, ![r, 1]⟩ c) (ix2 p 0)
      = Ideal.div (∑ j : Fin n, Z (ix2 p j)) c := by
  show Ideal.div (shapeCast ⟨2, ![r, 1]⟩ (multiReduction (F := Ideal) .add [1] ⟨1, ![r]⟩ Z acc hred hφ hacc) hsc (ix2 p 0)) c = _
  rw [shapeCast_col_apply, rowsum_apply]

/-- The rows normalised: with a column M of row means and a column V of mean squared deviations, the centred block
    times the reciprocal root of V plus eps, scaled by the row g and shifted by the row be. -/
theorem norm_body (c eps : Ideal .f32) (Y : FVec Ideal ⟨2, ![r, n]⟩ .f32) (g be : FVec Ideal ⟨2, ![1, n]⟩ .f32)
    (M V : FVec Ideal ⟨2, ![r, 1]⟩ .f32)
    (hc : (⟨2, ![r, 1]⟩ : Shape).Broadcasts ⟨2, ![r, n]⟩) (hr : (⟨2, ![1, n]⟩ : Shape).Broadcasts ⟨2, ![r, n]⟩)
    (hM : ∀ p : Fin r, M (ix2 p 0) = rowMean c Y p) (hV : ∀ p : Fin r, V (ix2 p 0) = rowVar c Y p) :
    addf (mulf (mulf (subf Y (broadcastTo ⟨2, ![r, n]⟩ M hc))
        (broadcastTo ⟨2, ![r, n]⟩ (rsqrt (addf V (broadcast ⟨2, ![r, 1]⟩ eps))) hc))
        (broadcastTo ⟨2, ![r, n]⟩ g hr)) (broadcastTo ⟨2, ![r, n]⟩ be hr)
      = normRows c eps Y g be := by
  funext i
  obtain ⟨p, q, rfl⟩ : ∃ (p : Fin r) (q : Fin n), i = ix2 p q := ⟨i 0, i 1, eq_ix2 i⟩
  show (Y (ix2 p q) - broadcastTo ⟨2, ![r, n]⟩ M hc (ix2 p q))
        * broadcastTo ⟨2, ![r, n]⟩ (rsqrt (addf V (broadcast ⟨2, ![r, 1]⟩ eps))) hc (ix2 p q)
        * broadcastTo ⟨2, ![r, n]⟩ g hr (ix2 p q) + broadcastTo ⟨2, ![r, n]⟩ be hr (ix2 p q) = _
  rw [broadcast_col_apply, broadcast_col_apply, broadcast_row_apply, broadcast_row_apply, hM]
  show (Y (ix2 p q) - rowMean c Y p) * Ideal.rsqrt (V (ix2 p 0) + eps) * g (ix2 0 q) + be (ix2 0 q) = _
  rw [hV]
  rfl

/-- The column of mean squared deviations: the row sums of the squared centred block, divided by the word c. -/
theorem var_col (c : Ideal .f32) (Y : FVec Ideal ⟨2, ![r, n]⟩ .f32) (M : FVec Ideal ⟨2, ![r, 1]⟩ .f32)
    (acc : BitVec (FTy.bits .f32))
    (hc : (⟨2, ![r, 1]⟩ : Shape).Broadcasts ⟨2, ![r, n]⟩)
    (hred : (⟨2, ![r, n]⟩ : Shape).Reduces [1] ⟨1, ![r]⟩) (hφ : FKind.Formats .f32)
    (hacc : acc = FKind.add.neutral .f32 hφ) (hsc : (⟨1, ![r]⟩ : Shape).ShapeCasts ⟨2, ![r, 1]⟩)
    (hM : ∀ p : Fin r, M (ix2 p 0) = rowMean c Y p) (p : Fin r) :
    divf (shapeCast ⟨2, ![r, 1]⟩ (multiReduction (F := Ideal) .add [1] ⟨1, ![r]⟩
          (mulf (subf Y (broadcastTo ⟨2, ![r, n]⟩ M hc)) (subf Y (broadcastTo ⟨2, ![r, n]⟩ M hc))) acc hred hφ hacc) hsc)
        (broadcast ⟨2, ![r, 1]⟩ c) (ix2 p 0)
      = rowVar c Y p := by
  rw [mean_col]
  unfold rowVar
  refine congrArg (fun s => Ideal.div s c) (Finset.sum_congr rfl fun j _ => ?_)
  show (Y (ix2 p j) - broadcastTo ⟨2, ![r, n]⟩ M hc (ix2 p j)) * (Y (ix2 p j) - broadcastTo ⟨2, ![r, n]⟩ M hc (ix2 p j)) = _
  rw [broadcast_col_apply, hM]

end Head

/-- The fourth body: the product plus its bias row, every row normalised, scaled and shifted. -/
theorem pay3_1 (x0 : Vec Ideal S256x128 .f32) (x1 : Vec Ideal S128x128 .f32) (x2 x3 x4 : Vec Ideal S1x128 .f32) :
    k3_pay1 (F := Ideal) x0 x1 x2 x3 x4 = head x0 x1 x2 x3 x4 := by
  unfold k3_pay1 head
  dsimp only
  simp only [shapeCast_self]
  have hY : (addf (matmul dot_S256x128_S128x128_S256x128_1_0_0_1_n_n none (truncf .bf16 x0 bitsLt_bf16_f32)
        (truncf .bf16 x1 bitsLt_bf16_f32) (constant S256x128 .f32 0x00000000#32))
        (broadcastTo S256x128 x2 broadcasts_S1x128_S256x128) : FVec Ideal S256x128 .f32)
      = biasRows (matProd x0 x1) x2 := by
    rw [matmul_zero_eq_matProd _ rfl rfl rfl rfl rfl rfl none _ _]
    exact bias_body _ _ _
  rw [hY]
  have hM : ∀ p : Fin 256,
      divf (shapeCast S256x1 (multiReduction (F := Ideal) .add [1] S256 (biasRows (matProd x0 x1) x2) 0x00000000#32
          reduces_S256x128_S256 (.inl rfl) rfl) shapeCasts_S256_S256x1)
        (broadcast S256x1 (Scalar.ofBits (F := Ideal) .f32 0x43000000#32)) (ix2 p 0)
        = rowMean c128 (biasRows (matProd x0 x1) x2) p :=
    fun p => mean_col _ _ _ _ _ _ _ p
  exact norm_body c128 epsW _ x3 x4 _ _ _ _ hM (fun p => var_col c128 _ _ _ _ _ _ _ _ hM p)

end Cert.KernelIdeal.Bodies

end
-- ==== Proof.LibRowBlocks.lean ====
/-
  Blocks of rows of a matrix product. An entry of a product depends on one row of the left operand, so a block of
  consecutive rows of A, multiplied by B, is the same block of rows of the product of A with B. Stated here with the
  two indices as variables: the index y inside the block and the index i of the whole array it sits at.
  Nothing here mentions a program.
-/
import Idealize.ShloMosaic.Lib.ValueIdx
import proofs.«174452_j12352325943369_2_alg».proof.Proof.LibMatProd

open scoped BigOperators

noncomputable section

namespace Cert.Lib.RowBlocks

open Idealize.ShloMosaic Idealize.ShloMosaic.ValueIdx Cert.Lib.MatProd

/-- The zero offset of a rank-2 rectangle, as a constant function. -/
theorem zero_offset2 : (![0, 0] : Fin 2 → Nat) = fun _ => 0 := funext fun a => by fin_cases a <;> rfl

/-- If row (y 0) of A' is row (i 0) of A, and y and i have the same column, the product of A' with B at y is the
    product of A with B at i. -/
theorem matProd_rows {m m' k n : Nat} (A : (⟨2, ![m, k]⟩ : Shape).Idx → EReal) (A' : (⟨2, ![m', k]⟩ : Shape).Idx → EReal)
    (B : (⟨2, ![k, n]⟩ : Shape).Idx → EReal) (y : (⟨2, ![m', n]⟩ : Shape).Idx) (i : (⟨2, ![m, n]⟩ : Shape).Idx)
    (hA : ∀ c : Fin k, A' (ix2 (⟨(y 0).val, idx2_lt0 y⟩ : Fin m') c) = A (ix2 (⟨(i 0).val, idx2_lt0 i⟩ : Fin m) c))
    (hcol : (y 1).val = (i 1).val) :
    matProd A' B y = matProd A B i := by
  obtain ⟨p, q, rfl⟩ : ∃ (p : Fin m') (q : Fin n), y = ix2 p q := ⟨y 0, y 1, eq_ix2 y⟩
  obtain ⟨r, s, rfl⟩ : ∃ (r : Fin m) (s : Fin n), i = ix2 r s := ⟨i 0, i 1, eq_ix2 i⟩
  have hqs : q = s := Fin.ext hcol
  subst hqs
  exact matProd_block A A' B B p q r q hA (fun _ => rfl)

end Cert.Lib.RowBlocks

end
-- ==== Proof.Regions.lean ====
/-
  What each output array of the program's four pipelined regions holds after the region, as one whole-array function
  of the contents the region is entered with. A region's grid point t reads block t of each blocked input and the
  whole of each unblocked one, and writes block t of each output; an entry of a product, of a row scaling or of a
  layer's combination depends only on the entry's own row of the blocked operands, so block t of the function of the
  blocks is block t of the function of the arrays; and the blocks of the 25 points (4000 rows each) tile the
  100000 rows. The last region has one point and whole-array blocks.
-/
import proofs.«174452_j12352325943369_2_alg».proof.Proof.PatchedKernelIdealFrame
import proofs.«174452_j12352325943369_2_alg».proof.Proof.Bodies
import proofs.«174452_j12352325943369_2_alg».proof.Proof.GcnSpec
import proofs.«174452_j12352325943369_2_alg».proof.Proof.LibMatProd
import proofs.«174452_j12352325943369_2_alg».proof.Proof.LibRowBlocks
import Idealize.ShloMosaic.Lib.Pipeline.Value

set_option maxRecDepth 16384

noncomputable section

namespace Cert.KernelIdeal.Regions

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)
open Cert.Lib.MatProd Cert.Gcn Cert.Lib.RowBlocks

variable (V : (c : Dev nD) → (b : Ref sig .tc) → Buf (Elt Ideal) ((c : Thread nD τ).loc b))

/-- The zero offset of a rank-2 rectangle, as a constant function. -/
theorem hz : (![0, 0] : Fin 2 → Nat) = fun _ => 0 := zero_offset2

/-! ## Region 0 -/

/-- The block indices of region 0's windows, decided over its 25 points: the blocked windows move with the output's
    row block and sit at column block 0, the whole-array window sits at block (0, 0). -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_4.index t (0 : Fin 2) = win0_3.index t (0 : Fin 2) ∧ win0_4.index t (1 : Fin 2) = 0
    ∧ win0_3.index t (1 : Fin 2) = 0 ∧ win0_3.index t (0 : Fin 2) ≤ 24 :=
  (by decide +kernel : ∀ t : Fin grid0.N, _)

/-- Every row block is some point's, for either output. -/
theorem idx_onto0_3 : ∀ q0 : Fin 25, ∃ t : Fin cfg0.N, win0_3.index t = ![q0.val, 0] :=
  (by decide +kernel : ∀ q0 : Fin 25, ∃ t : Fin grid0.N, win0_3.index t = ![q0.val, 0])
theorem idx_onto0_4 : ∀ q0 : Fin 25, ∃ t : Fin cfg0.N, win0_4.index t = ![q0.val, 0] :=
  (by decide +kernel : ∀ q0 : Fin 25, ∃ t : Fin grid0.N, win0_4.index t = ![q0.val, 0])

/-- The whole-array window's block is its array. -/
theorem iblk0_1 (c : Dev nD) (t : Fin cfg0.N) : (iblk0 V c 1 t : Vec Ideal S64x128 .f32) = V c main_arg3 := by
  funext y
  show V c main_arg3 (((cfg0.win 1).blk t).view.emb y) = V c main_arg3 y
  refine congrArg (V c main_arg3) ?_
  obtain ⟨e0, e1, e2, e3, e4, e5, e6, e7, e8, e9⟩ := idx_facts0 t
  funext a; apply Fin.ext
  match a with
  | ⟨0, _⟩ => show win0_1.index t (0 : Fin 2) * 64 + 1 * (y 0).val = (y 0).val; omega
  | ⟨1, _⟩ => show win0_1.index t (1 : Fin 2) * 128 + 1 * (y 1).val = (y 1).val; omega

/-- Entry y of the product of point t's row block with the weights is entry i of the product of the arrays, when i is
    y moved down by t blocks of 4000 rows. -/
theorem prod_at0 (c : Dev nD) (t : Fin cfg0.N) (y : S4000x128.Idx) (i : S100000x128.Idx)
    (h0 : (i 0).val = win0_3.index t (0 : Fin 2) * 4000 + (y 0).val) (h1 : (y 1).val = (i 1).val) :
    matProd (iblk0 V c 0 t) (V c main_arg3) y = matProd (V c main_arg0) (V c main_arg3) i := by
  obtain ⟨e0, e1, e2, e3, e4, e5, e6, e7, e8, e9⟩ := idx_facts0 t
  refine matProd_rows _ _ _ y i (fun cc => ?_) h1
  show V c main_arg0 (((cfg0.win 0).blk t).view.emb (ix2 (⟨(y 0).val, idx2_lt0 y⟩ : Fin 4000) cc)) = _
  refine congrArg (V c main_arg0) ?_
  funext a; apply Fin.ext
  match a with
  | ⟨0, _⟩ => show win0_0.index t (0 : Fin 2) * 4000 + 1 * (y 0).val = (i 0).val; omega
  | ⟨1, _⟩ => show win0_0.index t (1 : Fin 2) * 64 + 1 * cc.val = cc.val; omega

/-- What point t writes back to the first output is block t of the product of the two arrays. -/
theorem flushed0_3 (c : Dev nD) (t : Fin cfg0.N) :
    (dat0 V c).flushed 3 t
      = ((cfg0.win 3).blk t).view.read (Elt Ideal) (matProd (V c main_arg0) (V c main_arg3)) := by
  show (cfg0.win 3).cut (grid0.coords t) ((dat0 V c).after 3 t) = _
  rw [after0_3]
  unfold out0_3
  rw [View.canon_unit_zero hz]
  simp only [View.ld_unit_zero (S := S4000x64) hz, View.ld_unit_zero (S := S64x128) hz]
  rw [Cert.KernelIdeal.Bodies.pay0_1, iblk0_1]
  obtain ⟨e0, e1, e2, e3, e4, e5, e6, e7, e8, e9⟩ := idx_facts0 t
  funext j
  show matProd (iblk0 V c 0 t) (V c main_arg3) j
    = matProd (V c main_arg0) (V c main_arg3) (((cfg0.win 3).blk t).view.emb j)
  refine prod_at0 V c t j _ ?_ ?_
  · show win0_3.index t (0 : Fin 2) * 4000 + 1 * (j 0).val = win0_3.index t (0 : Fin 2) * 4000 + (j 0).val
    omega
  · show (j 1).val = win0_3.index t (1 : Fin 2) * 128 + 1 * (j 1).val
    omega

/-- What point t writes back to the second output is block t of that product with its rows scaled. -/
theorem flushed0_4 (c : Dev nD) (t : Fin cfg0.N) :
    (dat0 V c).flushed 4 t
      = ((cfg0.win 4).blk t).view.read (Elt Ideal)
          (scaleRows (matProd (V c main_arg0) (V c main_arg3)) (V c main_v11)) := by
  show (cfg0.win 4).cut (grid0.coords t) ((dat0 V c).after 4 t) = _
  rw [after0_4]
  unfold out0_4
  rw [View.canon_unit_zero hz]
  simp only [View.ld_unit_zero (S := S4000x64) hz, View.ld_unit_zero (S := S64x128) hz,
    View.ld_unit_zero (S := S4000x1) hz]
  rw [Cert.KernelIdeal.Bodies.pay0_2, iblk0_1]
  obtain ⟨e0, e1, e2, e3, e4, e5, e6, e7, e8, e9⟩ := idx_facts0 t
  funext j
  show scaleRows (matProd (iblk0 V c 0 t) (V c main_arg3)) (iblk0 V c 2 t) j
    = scaleRows (matProd (V c main_arg0) (V c main_arg3)) (V c main_v11) (((cfg0.win 4).blk t).view.emb j)
  refine scaleRows_at _ _ _ _ j _ ?_ ?_
  · refine prod_at0 V c t j _ ?_ ?_
    · show win0_4.index t (0 : Fin 2) * 4000 + 1 * (j 0).val = win0_3.index t (0 : Fin 2) * 4000 + (j 0).val
      omega
    · show (j 1).val = win0_4.index t (1 : Fin 2) * 128 + 1 * (j 1).val
      omega
  · show V c main_v11 (((cfg0.win 2).blk t).view.emb (ix2 (j 0) 0)) = V c main_v11 (ix2 ((((cfg0.win 4).blk t).view.emb j) 0) 0)
    refine congrArg (V c main_v11) ?_
    funext a; apply Fin.ext
    match a with
    | ⟨0, _⟩ => show win0_2.index t (0 : Fin 2) * 4000 + 1 * (j 0).val = win0_4.index t (0 : Fin 2) * 4000 + 1 * (j 0).val; omega
    | ⟨1, _⟩ => show win0_2.index t (1 : Fin 2) * 1 + 1 * 0 = 0; omega

/-- An index of the array is in point t's block iff each coordinate is in the block's range on its axis. -/
theorem mem_blk0_3 (t : Fin cfg0.N) (i : S100000x128.Idx) :
    i ∈ ((cfg0.win 3).blk t).view.set ↔ ∀ a : Fin 2, win0_3.index t a * S4000x128.size a ≤ (i a).val
      ∧ (i a).val < win0_3.index t a * S4000x128.size a + S4000x128.size a := by
  show i ∈ ((View.whole main_v12_0).slice (win0_3.rect t)).set ↔ _
  rw [View.set_slice_whole, Rect.mem_set_unit]
  exact Iff.rfl
theorem mem_blk0_4 (t : Fin cfg0.N) (i : S100000x128.Idx) :
    i ∈ ((cfg0.win 4).blk t).view.set ↔ ∀ a : Fin 2, win0_4.index t a * S4000x128.size a ≤ (i a).val
      ∧ (i a).val < win0_4.index t a * S4000x128.size a + S4000x128.size a := by
  show i ∈ ((View.whole main_v12_1).slice (win0_4.rect t)).set ↔ _
  rw [View.set_slice_whole, Rect.mem_set_unit]
  exact Iff.rfl

/-- The 25 blocks of 4000 rows tile the 100000 rows: row r is in the block of the point whose row block is
    r / 4000. -/
theorem covered0_3 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0_3 ⟨(i 0).val / 4000, by omega⟩
  have q0 : win0_3.index t (0 : Fin 2) = (i 0).val / 4000 := congrFun ht 0
  have q1 : win0_3.index t (1 : Fin 2) = 0 := congrFun ht 1
  refine ⟨t, flush0_3 t, ?_⟩
  rw [mem_blk0_3]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 128 ≤ (i 1).val ∧ (i 1).val < win0_3.index t (1 : Fin 2) * 128 + 128; omega
theorem covered0_4 (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto0_4 ⟨(i 0).val / 4000, by omega⟩
  have q0 : win0_4.index t (0 : Fin 2) = (i 0).val / 4000 := congrFun ht 0
  have q1 : win0_4.index t (1 : Fin 2) = 0 := congrFun ht 1
  refine ⟨t, flush0_4 t, ?_⟩
  rw [mem_blk0_4]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- After region 0 its first output holds the product of the features with the first layer's weights. -/
theorem arr0_3 (c : Dev nD) :
    (dat0 V c).arrAt 3 cfg0.N = matProd (V c main_arg0) (V c main_arg3) :=
  (dat0 V c).arrAt_eq_of_cover 3 _ (fun t _ => flushed0_3 V c t) covered0_3

/-- After region 0 its second output holds that product with every row scaled by the row's factor. -/
theorem arr0_4 (c : Dev nD) :
    (dat0 V c).arrAt 4 cfg0.N = scaleRows (matProd (V c main_arg0) (V c main_arg3)) (V c main_v11) :=
  (dat0 V c).arrAt_eq_of_cover 4 _ (fun t _ => flushed0_4 V c t) covered0_4

/-! ## Region 1 -/

/-- The block indices of region 1's windows, decided over its 25 points. -/
theorem idx_facts1 : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = win1_5.index t (0 : Fin 2) ∧ win1_6.index t (1 : Fin 2) = 0
    ∧ win1_5.index t (1 : Fin 2) = 0 ∧ win1_5.index t (0 : Fin 2) ≤ 24 :=
  (by decide +kernel : ∀ t : Fin grid1.N, _)

/-- Every row block is some point's, for either output. -/
theorem idx_onto1_5 : ∀ q0 : Fin 25, ∃ t : Fin cfg1.N, win1_5.index t = ![q0.val, 0] :=
  (by decide +kernel : ∀ q0 : Fin 25, ∃ t : Fin grid1.N, win1_5.index t = ![q0.val, 0])
theorem idx_onto1_6 : ∀ q0 : Fin 25, ∃ t : Fin cfg1.N, win1_6.index t = ![q0.val, 0] :=
  (by decide +kernel : ∀ q0 : Fin 25, ∃ t : Fin grid1.N, win1_6.index t = ![q0.val, 0])

/-- The whole-array windows' blocks are their arrays. -/
theorem iblk1_3 (c : Dev nD) (t : Fin cfg1.N) : (iblk1 V c 3 t : Vec Ideal S1x128 .f32) = V c main_v24 := by
  funext y
  show V c main_v24 (((cfg1.win 3).blk t).view.emb y) = V c main_v24 y
  refine congrArg (V c main_v24) ?_
  obtain ⟨e0, e1, e2, e3, e4, e5, e6, e7, e8, e9, e10, e11, e12, e13⟩ := idx_facts1 t
  funext a; apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega
theorem iblk1_4 (c : Dev nD) (t : Fin cfg1.N) : (iblk1 V c 4 t : Vec Ideal S128x128 .f32) = V c main_arg5 := by
  funext y
  show V c main_arg5 (((cfg1.win 4).blk t).view.emb y) = V c main_arg5 y
  refine congrArg (V c main_arg5) ?_
  obtain ⟨e0, e1, e2, e3, e4, e5, e6, e7, e8, e9, e10, e11, e12, e13⟩ := idx_facts1 t
  funext a; apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- Entry y of the combination of point t's blocks is entry i of the combination of the arrays, when i is y moved
    down by t blocks of 4000 rows. -/
theorem comb_at1 (c : Dev nD) (t : Fin cfg1.N) (y : S4000x128.Idx) (i : S100000x128.Idx)
    (h0 : (i 0).val = win1_5.index t (0 : Fin 2) * 4000 + (y 0).val) (h1 : (y 1).val = (i 1).val) :
    combine (iblk1 V c 0 t) (iblk1 V c 1 t) (iblk1 V c 2 t) (V c main_v24) y
      = combine (V c main_v23) (V c main_v12_0) (V c main_v11) (V c main_v24) i := by
  obtain ⟨e0, e1, e2, e3, e4, e5, e6, e7, e8, e9, e10, e11, e12, e13⟩ := idx_facts1 t
  refine combine_at _ _ _ _ _ _ _ _ y i ?_ ?_ ?_ ?_
  · show V c main_v23 (((cfg1.win 0).blk t).view.emb y) = V c main_v23 i
    refine congrArg (V c main_v23) ?_
    funext a; apply Fin.ext
    match a with
    | ⟨0, _⟩ => show win1_0.index t (0 : Fin 2) * 4000 + 1 * (y 0).val = (i 0).val; omega
    | ⟨1, _⟩ => show win1_0.index t (1 : Fin 2) * 128 + 1 * (y 1).val = (i 1).val; omega
  · show V c main_v12_0 (((cfg1.win 1).blk t).view.emb y) = V c main_v12_0 i
    refine congrArg (V c main_v12_0) ?_
    funext a; apply Fin.ext
    match a with
    | ⟨0, _⟩ => show win1_1.index t (0 : Fin 2) * 4000 + 1 * (y 0).val = (i 0).val; omega
    | ⟨1, _⟩ => show win1_1.index t (1 : Fin 2) * 128 + 1 * (y 1).val = (i 1).val; omega
  · show V c main_v11 (((cfg1.win 2).blk t).view.emb (ix2 (y 0) 0)) = V c main_v11 (ix2 (i 0) 0)
    refine congrArg (V c main_v11) ?_
    funext a; apply Fin.ext
    match a with
    | ⟨0, _⟩ => show win1_2.index t (0 : Fin 2) * 4000 + 1 * (y 0).val = (i 0).val; omega
    | ⟨1, _⟩ => show win1_2.index t (1 : Fin 2) * 1 + 1 * 0 = 0; omega
  · exact congrArg (fun q : Fin 128 => V c main_v24 (ix2 0 q)) (Fin.ext h1)

/-- Entry y of the product of point t's combined block with the weights is entry i of the product of the combined
    arrays with the weights. -/
theorem prod_at1 (c : Dev nD) (t : Fin cfg1.N) (y : S4000x128.Idx) (i : S100000x128.Idx)
    (h0 : (i 0).val = win1_5.index t (0 : Fin 2) * 4000 + (y 0).val) (h1 : (y 1).val = (i 1).val) :
    matProd (combine (iblk1 V c 0 t) (iblk1 V c 1 t) (iblk1 V c 2 t) (V c main_v24)) (V c main_arg5) y
      = matProd (combine (V c main_v23) (V c main_v12_0) (V c main_v11) (V c main_v24)) (V c main_arg5) i :=
  matProd_rows _ _ _ y i (fun cc => comb_at1 V c t _ _ h0 rfl) h1

/-- What point t writes back to the first output is block t of the product of the combined arrays with the weights. -/
theorem flushed1_5 (c : Dev nD) (t : Fin cfg1.N) :
    (dat1 V c).flushed 5 t
      = ((cfg1.win 5).blk t).view.read (Elt Ideal)
          (matProd (combine (V c main_v23) (V c main_v12_0) (V c main_v11) (V c main_v24)) (V c main_arg5)) := by
  show (cfg1.win 5).cut (grid1.coords t) ((dat1 V c).after 5 t) = _
  rw [after1_5]
  unfold out1_5
  rw [View.canon_unit_zero hz]
  simp only [View.ld_unit_zero (S := S4000x128) hz, View.ld_unit_zero (S := S4000x1) hz,
    View.ld_unit_zero (S := S1x128) hz, View.ld_unit_zero (S := S128x128) hz]
  rw [Cert.KernelIdeal.Bodies.pay1_2, iblk1_3, iblk1_4]
  obtain ⟨e0, e1, e2, e3, e4, e5, e6, e7, e8, e9, e10, e11, e12, e13⟩ := idx_facts1 t
  funext j
  show matProd (combine (iblk1 V c 0 t) (iblk1 V c 1 t) (iblk1 V c 2 t) (V c main_v24)) (V c main_arg5) j
    = matProd (combine (V c main_v23) (V c main_v12_0) (V c main_v11) (V c main_v24)) (V c main_arg5)
        (((cfg1.win 5).blk t).view.emb j)
  refine prod_at1 V c t j _ ?_ ?_
  · show win1_5.index t (0 : Fin 2) * 4000 + 1 * (j 0).val = win1_5.index t (0 : Fin 2) * 4000 + (j 0).val
    omega
  · show (j 1).val = win1_5.index t (1 : Fin 2) * 128 + 1 * (j 1).val
    omega

/-- What point t writes back to the second output is block t of that product with its rows scaled. -/
theorem flushed1_6 (c : Dev nD) (t : Fin cfg1.N) :
    (dat1 V c).flushed 6 t
      = ((cfg1.win 6).blk t).view.read (Elt Ideal)
          (scaleRows (matProd (combine (V c main_v23) (V c main_v12_0) (V c main_v11) (V c main_v24)) (V c main_arg5))
            (V c main_v11)) := by
  show (cfg1.win 6).cut (grid1.coords t) ((dat1 V c).after 6 t) = _
  rw [after1_6]
  unfold out1_6
  rw [View.canon_unit_zero hz]
  simp only [View.ld_unit_zero (S := S4000x128) hz, View.ld_unit_zero (S := S4000x1) hz,
    View.ld_unit_zero (S := S1x128) hz, View.ld_unit_zero (S := S128x128) hz]
  rw [Cert.KernelIdeal.Bodies.pay1_3, iblk1_3, iblk1_4]
  obtain ⟨e0, e1, e2, e3, e4, e5, e6, e7, e8, e9, e10, e11, e12, e13⟩ := idx_facts1 t
  funext j
  show scaleRows (matProd (combine (iblk1 V c 0 t) (iblk1 V c 1 t) (iblk1 V c 2 t) (V c main_v24)) (V c main_arg5))
        (iblk1 V c 2 t) j
    = scaleRows (matProd (combine (V c main_v23) (V c main_v12_0) (V c main_v11) (V c main_v24)) (V c main_arg5))
        (V c main_v11) (((cfg1.win 6).blk t).view.emb j)
  refine scaleRows_at _ _ _ _ j _ ?_ ?_
  · refine prod_at1 V c t j _ ?_ ?_
    · show win1_6.index t (0 : Fin 2) * 4000 + 1 * (j 0).val = win1_5.index t (0 : Fin 2) * 4000 + (j 0).val
      omega
    · show (j 1).val = win1_6.index t (1 : Fin 2) * 128 + 1 * (j 1).val
      omega
  · show V c main_v11 (((cfg1.win 2).blk t).view.emb (ix2 (j 0) 0))
      = V c main_v11 (ix2 ((((cfg1.win 6).blk t).view.emb j) 0) 0)
    refine congrArg (V c main_v11) ?_
    funext a; apply Fin.ext
    match a with
    | ⟨0, _⟩ => show win1_2.index t (0 : Fin 2) * 4000 + 1 * (j 0).val = win1_6.index t (0 : Fin 2) * 4000 + 1 * (j 0).val; omega
    | ⟨1, _⟩ => show win1_2.index t (1 : Fin 2) * 1 + 1 * 0 = 0; omega

/-- An index of the array is in point t's block iff each coordinate is in the block's range on its axis. -/
theorem mem_blk1_5 (t : Fin cfg1.N) (i : S100000x128.Idx) :
    i ∈ ((cfg1.win 5).blk t).view.set ↔ ∀ a : Fin 2, win1_5.index t a * S4000x128.size a ≤ (i a).val
      ∧ (i a).val < win1_5.index t a * S4000x128.size a + S4000x128.size a := by
  show i ∈ ((View.whole main_v25_0).slice (win1_5.rect t)).set ↔ _
  rw [View.set_slice_whole, Rect.mem_set_unit]
  exact Iff.rfl

/-- The 25 blocks of 4000 rows tile the 100000 rows: row r is in the block of the point whose row block is
    r / 4000. -/
theorem covered1_5 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto1_5 ⟨(i 0).val / 4000, by omega⟩
  have q0 : win1_5.index t (0 : Fin 2) = (i 0).val / 4000 := congrFun ht 0
  have q1 : win1_5.index t (1 : Fin 2) = 0 := congrFun ht 1
  refine ⟨t, flush1_5 t, ?_⟩
  rw [mem_blk1_5]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 128 ≤ (i 1).val ∧ (i 1).val < win1_5.index t (1 : Fin 2) * 128 + 128; omega

/-- An index of the array is in point t's block iff each coordinate is in the block's range on its axis. -/
theorem mem_blk1_6 (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v25_1).slice (win1_6.rect t)).set ↔ _
  rw [View.set_slice_whole, Rect.mem_set_unit]
  exact Iff.rfl

/-- The 25 blocks of 4000 rows tile the 100000 rows: row r is in the block of the point whose row block is
    r / 4000. -/
theorem covered1_6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ := idx_onto1_6 ⟨(i 0).val / 4000, by omega⟩
  have q0 : win1_6.index t (0 : Fin 2) = (i 0).val / 4000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- After region 1 its first output holds the first layer's combination times the second layer's weights. -/
theorem arr1_5 (c : Dev nD) :
    (dat1 V c).arrAt 5 cfg1.N
      = matProd (combine (V c main_v23) (V c main_v12_0) (V c main_v11) (V c main_v24)) (V c main_arg5) :=
  (dat1 V c).arrAt_eq_of_cover 5 _ (fun t _ => flushed1_5 V c t) covered1_5

/-- After region 1 its second output holds that product with every row scaled by the row's factor. -/
theorem arr1_6 (c : Dev nD) :
    (dat1 V c).arrAt 6 cfg1.N
      = scaleRows (matProd (combine (V c main_v23) (V c main_v12_0) (V c main_v11) (V c main_v24)) (V c main_arg5))
          (V c main_v11) :=
  (dat1 V c).arrAt_eq_of_cover 6 _ (fun t _ => flushed1_6 V c t) covered1_6

/-! ## Region 2 -/

/-- The block indices of region 2's windows, decided over its 25 points. -/
theorem idx_facts2 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (1 : Fin 2) = 0 ∧ win2_4.index t (0 : Fin 2) ≤ 24 :=
  (by decide +kernel : ∀ t : Fin grid2.N, _)

/-- Every row block is some point's. -/
theorem idx_onto2_4 : ∀ q0 : Fin 25, ∃ t : Fin cfg2.N, win2_4.index t = ![q0.val, 0] :=
  (by decide +kernel : ∀ q0 : Fin 25, ∃ t : Fin grid2.N, win2_4.index t = ![q0.val, 0])

/-- The whole-array window's block is its array. -/
theorem iblk2_3 (c : Dev nD) (t : Fin cfg2.N) : (iblk2 V c 3 t : Vec Ideal S1x128 .f32) = V c main_v37 := by
  funext y
  show V c main_v37 (((cfg2.win 3).blk t).view.emb y) = V c main_v37 y
  refine congrArg (V c main_v37) ?_
  obtain ⟨e0, e1, e2, e3, e4, e5, e6, e7, e8, e9⟩ := idx_facts2 t
  funext a; apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Entry y of the combination of point t's blocks is entry i of the combination of the arrays, when i is y moved
    down by t blocks of 4000 rows. -/
theorem comb_at2 (c : Dev nD) (t : Fin cfg2.N) (y : S4000x128.Idx) (i : S100000x128.Idx)
    (h0 : (i 0).val = win2_4.index t (0 : Fin 2) * 4000 + (y 0).val) (h1 : (y 1).val = (i 1).val) :
    combine (iblk2 V c 0 t) (iblk2 V c 1 t) (iblk2 V c 2 t) (V c main_v37) y
      = combine (V c main_v36) (V c main_v25_0) (V c main_v11) (V c main_v37) i := by
  obtain ⟨e0, e1, e2, e3, e4, e5, e6, e7, e8, e9⟩ := idx_facts2 t
  refine combine_at _ _ _ _ _ _ _ _ y i ?_ ?_ ?_ ?_
  · show V c main_v36 (((cfg2.win 0).blk t).view.emb y) = V c main_v36 i
    refine congrArg (V c main_v36) ?_
    funext a; apply Fin.ext
    match a with
    | ⟨0, _⟩ => show win2_0.index t (0 : Fin 2) * 4000 + 1 * (y 0).val = (i 0).val; omega
    | ⟨1, _⟩ => show win2_0.index t (1 : Fin 2) * 128 + 1 * (y 1).val = (i 1).val; omega
  · show V c main_v25_0 (((cfg2.win 1).blk t).view.emb y) = V c main_v25_0 i
    refine congrArg (V c main_v25_0) ?_
    funext a; apply Fin.ext
    match a with
    | ⟨0, _⟩ => show win2_1.index t (0 : Fin 2) * 4000 + 1 * (y 0).val = (i 0).val; omega
    | ⟨1, _⟩ => show win2_1.index t (1 : Fin 2) * 128 + 1 * (y 1).val = (i 1).val; omega
  · show V c main_v11 (((cfg2.win 2).blk t).view.emb (ix2 (y 0) 0)) = V c main_v11 (ix2 (i 0) 0)
    refine congrArg (V c main_v11) ?_
    funext a; apply Fin.ext
    match a with
    | ⟨0, _⟩ => show win2_2.index t (0 : Fin 2) * 4000 + 1 * (y 0).val = (i 0).val; omega
    | ⟨1, _⟩ => show win2_2.index t (1 : Fin 2) * 1 + 1 * 0 = 0; omega
  · exact congrArg (fun q : Fin 128 => V c main_v37 (ix2 0 q)) (Fin.ext h1)

/-- What point t writes back is block t of the combination of the arrays. -/
theorem flushed2_4 (c : Dev nD) (t : Fin cfg2.N) :
    (dat2 V c).flushed 4 t
      = ((cfg2.win 4).blk t).view.read (Elt Ideal)
          (combine (V c main_v36) (V c main_v25_0) (V c main_v11) (V c main_v37)) := by
  show (cfg2.win 4).cut (grid2.coords t) ((dat2 V c).after 4 t) = _
  rw [after2_4]
  unfold out2_4
  rw [View.canon_unit_zero hz]
  simp only [View.ld_unit_zero (S := S4000x128) hz, View.ld_unit_zero (S := S4000x1) hz,
    View.ld_unit_zero (S := S1x128) hz]
  rw [Cert.KernelIdeal.Bodies.pay2_1, iblk2_3]
  obtain ⟨e0, e1, e2, e3, e4, e5, e6, e7, e8, e9⟩ := idx_facts2 t
  funext j
  show combine (iblk2 V c 0 t) (iblk2 V c 1 t) (iblk2 V c 2 t) (V c main_v37) j
    = combine (V c main_v36) (V c main_v25_0) (V c main_v11) (V c main_v37) (((cfg2.win 4).blk t).view.emb j)
  refine comb_at2 V c t j _ ?_ ?_
  · show win2_4.index t (0 : Fin 2) * 4000 + 1 * (j 0).val = win2_4.index t (0 : Fin 2) * 4000 + (j 0).val
    omega
  · show (j 1).val = win2_4.index t (1 : Fin 2) * 128 + 1 * (j 1).val
    omega

/-- An index of the array is in point t's block iff each coordinate is in the block's range on its axis. -/
theorem mem_blk2_4 (t : Fin cfg2.N) (i : S100000x128.Idx) :
    i ∈ ((cfg2.win 4).blk t).view.set ↔ ∀ a : Fin 2, win2_4.index t a * S4000x128.size a ≤ (i a).val
      ∧ (i a).val < win2_4.index t a * S4000x128.size a + S4000x128.size a := by
  show i ∈ ((View.whole main_v38).slice (win2_4.rect t)).set ↔ _
  rw [View.set_slice_whole, Rect.mem_set_unit]
  exact Iff.rfl

/-- The 25 blocks of 4000 rows tile the 100000 rows: row r is in the block of the point whose row block is
    r / 4000. -/
theorem covered2_4 (i : S100000x128.Idx) :
    ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ := idx_onto2_4 ⟨(i 0).val / 4000, by omega⟩
  have q0 : win2_4.index t (0 : Fin 2) = (i 0).val / 4000 := congrFun ht 0
  have q1 : win2_4.index t (1 : Fin 2) = 0 := congrFun ht 1
  refine ⟨t, flush2_4 t, ?_⟩
  rw [mem_blk2_4]
  intro a
  match a with
  | ⟨0, _⟩ => show win2_4.index t (0 : Fin 2) * 4000 ≤ (i 0).val ∧ (i 0).val < win2_4.index t (0 : Fin 2) * 4000 + 4000; omega
  | ⟨1, _⟩ => show win2_4.index t (1 : Fin 2) * 128 ≤ (i 1).val ∧ (i 1).val < win2_4.index t (1 : Fin 2) * 128 + 128; omega

/-- After region 2 its output holds the second layer's combination. -/
theorem arr2_4 (c : Dev nD) :
    (dat2 V c).arrAt 4 cfg2.N = combine (V c main_v36) (V c main_v25_0) (V c main_v11) (V c main_v37) :=
  (dat2 V c).arrAt_eq_of_cover 4 _ (fun t _ => flushed2_4 V c t) covered2_4

/-! ## Region 3 -/

/-- The block indices of region 3's windows at its one point: every window sits at block (0, 0). -/
theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Every window's block is its whole array. -/
theorem iblk3_0 (c : Dev nD) (t : Fin cfg3.N) : (iblk3 V c 0 t : Vec Ideal S256x128 .f32) = V c main_v50 := by
  funext y
  show V c main_v50 (((cfg3.win 0).blk t).view.emb y) = V c main_v50 y
  refine congrArg (V c main_v50) ?_
  obtain ⟨e0, e1, e2, e3, e4, e5, e6, e7, e8, e9, e10, e11⟩ := idx_facts3 t
  funext a; apply Fin.ext
  match a with
  | ⟨0, _⟩ => show win3_0.index t (0 : Fin 2) * 256 + 1 * (y 0).val = (y 0).val; omega
  | ⟨1, _⟩ => show win3_0.index t (1 : Fin 2) * 128 + 1 * (y 1).val = (y 1).val; omega
theorem iblk3_1 (c : Dev nD) (t : Fin cfg3.N) : (iblk3 V c 1 t : Vec Ideal S128x128 .f32) = V c main_arg7 := by
  funext y
  show V c main_arg7 (((cfg3.win 1).blk t).view.emb y) = V c main_arg7 y
  refine congrArg (V c main_arg7) ?_
  obtain ⟨e0, e1, e2, e3, e4, e5, e6, e7, e8, e9, e10, e11⟩ := idx_facts3 t
  funext a; apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega
theorem iblk3_2 (c : Dev nD) (t : Fin cfg3.N) : (iblk3 V c 2 t : Vec Ideal S1x128 .f32) = V c main_v51 := by
  funext y
  show V c main_v51 (((cfg3.win 2).blk t).view.emb y) = V c main_v51 y
  refine congrArg (V c main_v51) ?_
  obtain ⟨e0, e1, e2, e3, e4, e5, e6, e7, e8, e9, e10, e11⟩ := idx_facts3 t
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem iblk3_3 (c : Dev nD) (t : Fin cfg3.N) : (iblk3 V c 3 t : Vec Ideal S1x128 .f32) = V c main_v52 := by
  funext y
  show V c main_v52 (((cfg3.win 3).blk t).view.emb y) = V c main_v52 y
  refine congrArg (V c main_v52) ?_
  obtain ⟨e0, e1, e2, e3, e4, e5, e6, e7, e8, e9, e10, e11⟩ := idx_facts3 t
  funext a; apply Fin.ext
  match a with
  | ⟨0, _⟩ => show win3_3.index t (0 : Fin 2) * 1 + 1 * (y 0).val = (y 0).val; omega
  | ⟨1, _⟩ => show win3_3.index t (1 : Fin 2) * 128 + 1 * (y 1).val = (y 1).val; omega
theorem iblk3_4 (c : Dev nD) (t : Fin cfg3.N) : (iblk3 V c 4 t : Vec Ideal S1x128 .f32) = V c main_v53 := by
  funext y
  show V c main_v53 (((cfg3.win 4).blk t).view.emb y) = V c main_v53 y
  refine congrArg (V c main_v53) ?_
  obtain ⟨e0, e1, e2, e3, e4, e5, e6, e7, e8, e9, e10, e11⟩ := idx_facts3 t
  funext a; apply Fin.ext
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What the one point writes back is the normalised head of the arrays, read through the whole-array block. -/
theorem flushed3_5 (c : Dev nD) (t : Fin cfg3.N) :
    (dat3 V c).flushed 5 t
      = ((cfg3.win 5).blk t).view.read (Elt Ideal)
          (head (V c main_v50) (V c main_arg7) (V c main_v51) (V c main_v52) (V c main_v53)) := by
  show (cfg3.win 5).cut (grid3.coords t) ((dat3 V c).after 5 t) = _
  rw [after3_5]
  unfold out3_5
  rw [View.canon_unit_zero hz]
  simp only [View.ld_unit_zero (S := S256x128) hz, View.ld_unit_zero (S := S128x128) hz,
    View.ld_unit_zero (S := S1x128) hz]
  rw [Cert.KernelIdeal.Bodies.pay3_1, iblk3_0, iblk3_1, iblk3_2, iblk3_3, iblk3_4]
  obtain ⟨e0, e1, e2, e3, e4, e5, e6, e7, e8, e9, e10, e11⟩ := idx_facts3 t
  funext j
  show head (V c main_v50) (V c main_arg7) (V c main_v51) (V c main_v52) (V c main_v53) j
    = head (V c main_v50) (V c main_arg7) (V c main_v51) (V c main_v52) (V c main_v53)
        (((cfg3.win 5).blk t).view.emb j)
  refine congrArg (head (V c main_v50) (V c main_arg7) (V c main_v51) (V c main_v52) (V c main_v53)) ?_
  funext a; apply Fin.ext
  match a with
  | ⟨0, _⟩ => show (j 0).val = win3_5.index t (0 : Fin 2) * 256 + 1 * (j 0).val; omega
  | ⟨1, _⟩ => show (j 1).val = win3_5.index t (1 : Fin 2) * 128 + 1 * (j 1).val; omega

/-- An index of the array is in point t's block iff each coordinate is in the block's range on its axis. -/
theorem mem_blk3_5 (t : Fin cfg3.N) (i : S256x128.Idx) :
    i ∈ ((cfg3.win 5).blk t).view.set ↔ ∀ a : Fin 2, win3_5.index t a * S256x128.size a ≤ (i a).val
      ∧ (i a).val < win3_5.index t a * S256x128.size a + S256x128.size a := by
  show i ∈ ((View.whole main_v54).slice (win3_5.rect t)).set ↔ _
  rw [View.set_slice_whole, Rect.mem_set_unit]
  exact Iff.rfl

/-- The one block is the whole array. -/
theorem covered3_5 (i : S256x128.Idx) :
    ∃ t : Fin cfg3.N, (cfg3.win 5).flush t = true ∧ i ∈ ((cfg3.win 5).blk t).view.set := by
  have hi0 : (i 0).val < 256 := (i 0).isLt
  have hi1 : (i 1).val < 128 := (i 1).isLt
  have t : Fin cfg3.N := ⟨0, by decide⟩
  obtain ⟨e0, e1, e2, e3, e4, e5, e6, e7, e8, e9, e10, e11⟩ := idx_facts3 t
  refine ⟨t, flush3_5 t, ?_⟩
  rw [mem_blk3_5]
  intro a
  match a with
  | ⟨0, _⟩ => show win3_5.index t (0 : Fin 2) * 256 ≤ (i 0).val ∧ (i 0).val < win3_5.index t (0 : Fin 2) * 256 + 256; omega
  | ⟨1, _⟩ => show win3_5.index t (1 : Fin 2) * 128 ≤ (i 1).val ∧ (i 1).val < win3_5.index t (1 : Fin 2) * 128 + 128; omega

/-- After region 3 its output holds the normalised head of the pooled rows. -/
theorem arr3_5 (c : Dev nD) :
    (dat3 V c).arrAt 5 cfg3.N
      = head (V c main_v50) (V c main_arg7) (V c main_v51) (V c main_v52) (V c main_v53) :=
  (dat3 V c).arrAt_eq_of_cover 5 _ (fun t _ => flushed3_5 V c t) covered3_5

end Cert.KernelIdeal.Regions

end
-- ==== Proof.KernelValue.lean ====
/-
  What every buffer the idealized kernel program reads holds at each boundary between its host stretches and its
  four kernel regions, as a function of the argument arrays: a host stretch's buffers by its operations, a region's
  output arrays by the region's whole-array function of its entry contents, every other buffer as it was. The last
  boundary's result buffer is the program's result function of the arguments.
-/
import proofs.«174452_j12352325943369_2_alg».proof.Proof.KernelStages
import proofs.«174452_j12352325943369_2_alg».proof.Proof.Regions

set_option maxRecDepth 16384

noncomputable section

namespace Cert.KernelIdeal.Stages

open Cert.KernelIdeal Cert.KernelIdeal.Gen Cert.KernelIdeal.GenP Idealize.ShloMosaic Idealize.ShloMosaic.TcCoe Idealize.SL.Sem
open Idealize.ShloMosaic.ValueIdx
open Cert.Lib.MatProd Cert.Gcn

variable (m : (ℓ : Loc nD τ sig) → Buf (Elt Ideal) ℓ) (ρ : Dev nD → PrngReg)

theorem W2_v1 (c : Dev nD) : W2 m ρ c (Proc.devRef .tc main_v1) = kSrc (m ((c : Thread nD τ).loc main_arg1)) :=
  (W2_of_ne m ρ c main_v1 (by decide)).trans (W1_v1 m ρ c)

theorem W2_v3 (c : Dev nD) : W2 m ρ c (Proc.devRef .tc main_v3) = kDst (m ((c : Thread nD τ).loc main_arg1)) :=
  (W2_of_ne m ρ c main_v3 (by decide)).trans (W1_v3 m ρ c)

theorem W2_arg2 (c : Dev nD) : W2 m ρ c (Proc.devRef .tc main_arg2) = (m ((c : Thread nD τ).loc main_arg2)) :=
  (W2_of_ne m ρ c main_arg2 (by decide)).trans (W1_arg2 m ρ c)

theorem W2_arg4 (c : Dev nD) : W2 m ρ c (Proc.devRef .tc main_arg4) = (m ((c : Thread nD τ).loc main_arg4)) :=
  (W2_of_ne m ρ c main_arg4 (by decide)).trans (W1_arg4 m ρ c)

theorem W2_arg5 (c : Dev nD) : W2 m ρ c (Proc.devRef .tc main_arg5) = (m ((c : Thread nD τ).loc main_arg5)) :=
  (W2_of_ne m ρ c main_arg5 (by decide)).trans (W1_arg5 m ρ c)

theorem W2_arg6 (c : Dev nD) : W2 m ρ c (Proc.devRef .tc main_arg6) = (m ((c : Thread nD τ).loc main_arg6)) :=
  (W2_of_ne m ρ c main_arg6 (by decide)).trans (W1_arg6 m ρ c)

theorem W2_arg7 (c : Dev nD) : W2 m ρ c (Proc.devRef .tc main_arg7) = (m ((c : Thread nD τ).loc main_arg7)) :=
  (W2_of_ne m ρ c main_arg7 (by decide)).trans (W1_arg7 m ρ c)

theorem W2_arg8 (c : Dev nD) : W2 m ρ c (Proc.devRef .tc main_arg8) = (m ((c : Thread nD τ).loc main_arg8)) :=
  (W2_of_ne m ρ c main_arg8 (by decide)).trans (W1_arg8 m ρ c)

theorem W2_arg9 (c : Dev nD) : W2 m ρ c (Proc.devRef .tc main_arg9) = (m ((c : Thread nD τ).loc main_arg9)) :=
  (W2_of_ne m ρ c main_arg9 (by decide)).trans (W1_arg9 m ρ c)

theorem W2_arg10 (c : Dev nD) : W2 m ρ c (Proc.devRef .tc main_arg10) = (m ((c : Thread nD τ).loc main_arg10)) :=
  (W2_of_ne m ρ c main_arg10 (by decide)).trans (W1_arg10 m ρ c)

theorem W2_v11 (c : Dev nD) : W2 m ρ c (Proc.devRef .tc main_v11) = kDcol (m ((c : Thread nD τ).loc main_arg1)) :=
  ((W2_arr m ρ c 2).trans (((dat0 (V1 m ρ) c).arrAt_in 2 rfl _).trans (A_eq0 (V1 m ρ) c 2))).trans (W1_v11 m ρ c)

theorem W2_v12_0 (c : Dev nD) : W2 m ρ c (Proc.devRef .tc main_v12_0) = kH1 (m ((c : Thread nD τ).loc main_arg0)) (m ((c : Thread nD τ).loc main_arg3)) := by
  refine (W2_arr m ρ c 3).trans ((Cert.KernelIdeal.Regions.arr0_3 (V1 m ρ) c).trans ?_)
  show matProd (W1 m ρ c (Proc.devRef .tc main_arg0)) (W1 m ρ c (Proc.devRef .tc main_arg3)) = _
  rw [W1_arg0 m ρ c, W1_arg3 m ρ c]
  try rfl

theorem W2_v12_1 (c : Dev nD) : W2 m ρ c (Proc.devRef .tc main_v12_1) = kHS1 (m ((c : Thread nD τ).loc main_arg0)) (m ((c : Thread nD τ).loc main_arg1)) (m ((c : Thread nD τ).loc main_arg3)) := by
  refine (W2_arr m ρ c 4).trans ((Cert.KernelIdeal.Regions.arr0_4 (V1 m ρ) c).trans ?_)
  show scaleRows (matProd (W1 m ρ c (Proc.devRef .tc main_arg0)) (W1 m ρ c (Proc.devRef .tc main_arg3))) (W1 m ρ c (Proc.devRef .tc main_v11)) = _
  rw [W1_arg0 m ρ c, W1_arg3 m ρ c, W1_v11 m ρ c]
  try rfl

theorem W3_v23 (c : Dev nD) : W3 m ρ c (Proc.devRef .tc main_v23) = kAgg (kHS1 (m ((c : Thread nD τ).loc main_arg0)) (m ((c : Thread nD τ).loc main_arg1)) (m ((c : Thread nD τ).loc main_arg3))) (m ((c : Thread nD τ).loc main_arg1)) := by
  show StableHlo.after hostOps1 (W2 m ρ c) (Proc.devRef .tc main_v23) = _
  dsimp only [hostOps1]
  after_results_simp
  rw [W2_v1 m ρ c, W2_v3 m ρ c, W2_v12_1 m ρ c]
  try rfl

theorem W3_v24 (c : Dev nD) : W3 m ρ c (Proc.devRef .tc main_v24) = kB (m ((c : Thread nD τ).loc main_arg4)) := by
  show StableHlo.after hostOps1 (W2 m ρ c) (Proc.devRef .tc main_v24) = _
  dsimp only [hostOps1]
  after_results_simp
  rw [W2_arg4 m ρ c]
  try rfl

theorem W3_v12_0 (c : Dev nD) : W3 m ρ c (Proc.devRef .tc main_v12_0) = kH1 (m ((c : Thread nD τ).loc main_arg0)) (m ((c : Thread nD τ).loc main_arg3)) := by
  show StableHlo.after hostOps1 (W2 m ρ c) (Proc.devRef .tc main_v12_0) = _
  dsimp only [hostOps1]
  after_results_simp
  exact W2_v12_0 m ρ c

theorem W3_v11 (c : Dev nD) : W3 m ρ c (Proc.devRef .tc main_v11) = kDcol (m ((c : Thread nD τ).loc main_arg1)) := by
  show StableHlo.after hostOps1 (W2 m ρ c) (Proc.devRef .tc main_v11) = _
  dsimp only [hostOps1]
  after_results_simp
  exact W2_v11 m ρ c

theorem W3_v1 (c : Dev nD) : W3 m ρ c (Proc.devRef .tc main_v1) = kSrc (m ((c : Thread nD τ).loc main_arg1)) := by
  show StableHlo.after hostOps1 (W2 m ρ c) (Proc.devRef .tc main_v1) = _
  dsimp only [hostOps1]
  after_results_simp
  exact W2_v1 m ρ c

theorem W3_v3 (c : Dev nD) : W3 m ρ c (Proc.devRef .tc main_v3) = kDst (m ((c : Thread nD τ).loc main_arg1)) := by
  show StableHlo.after hostOps1 (W2 m ρ c) (Proc.devRef .tc main_v3) = _
  dsimp only [hostOps1]
  after_results_simp
  exact W2_v3 m ρ c

theorem W3_arg2 (c : Dev nD) : W3 m ρ c (Proc.devRef .tc main_arg2) = (m ((c : Thread nD τ).loc main_arg2)) := by
  show StableHlo.after hostOps1 (W2 m ρ c) (Proc.devRef .tc main_arg2) = _
  dsimp only [hostOps1]
  after_results_simp
  exact W2_arg2 m ρ c

theorem W3_arg5 (c : Dev nD) : W3 m ρ c (Proc.devRef .tc main_arg5) = (m ((c : Thread nD τ).loc main_arg5)) := by
  show StableHlo.after hostOps1 (W2 m ρ c) (Proc.devRef .tc main_arg5) = _
  dsimp only [hostOps1]
  after_results_simp
  exact W2_arg5 m ρ c

theorem W3_arg6 (c : Dev nD) : W3 m ρ c (Proc.devRef .tc main_arg6) = (m ((c : Thread nD τ).loc main_arg6)) := by
  show StableHlo.after hostOps1 (W2 m ρ c) (Proc.devRef .tc main_arg6) = _
  dsimp only [hostOps1]
  after_results_simp
  exact W2_arg6 m ρ c

theorem W3_arg7 (c : Dev nD) : W3 m ρ c (Proc.devRef .tc main_arg7) = (m ((c : Thread nD τ).loc main_arg7)) := by
  show StableHlo.after hostOps1 (W2 m ρ c) (Proc.devRef .tc main_arg7) = _
  dsimp only [hostOps1]
  after_results_simp
  exact W2_arg7 m ρ c

theorem W3_arg8 (c : Dev nD) : W3 m ρ c (Proc.devRef .tc main_arg8) = (m ((c : Thread nD τ).loc main_arg8)) := by
  show StableHlo.after hostOps1 (W2 m ρ c) (Proc.devRef .tc main_arg8) = _
  dsimp only [hostOps1]
  after_results_simp
  exact W2_arg8 m ρ c

theorem W3_arg9 (c : Dev nD) : W3 m ρ c (Proc.devRef .tc main_arg9) = (m ((c : Thread nD τ).loc main_arg9)) := by
  show StableHlo.after hostOps1 (W2 m ρ c) (Proc.devRef .tc main_arg9) = _
  dsimp only [hostOps1]
  after_results_simp
  exact W2_arg9 m ρ c

theorem W3_arg10 (c : Dev nD) : W3 m ρ c (Proc.devRef .tc main_arg10) = (m ((c : Thread nD τ).loc main_arg10)) := by
  show StableHlo.after hostOps1 (W2 m ρ c) (Proc.devRef .tc main_arg10) = _
  dsimp only [hostOps1]
  after_results_simp
  exact W2_arg10 m ρ c

theorem W4_v1 (c : Dev nD) : W4 m ρ c (Proc.devRef .tc main_v1) = kSrc (m ((c : Thread nD τ).loc main_arg1)) :=
  (W4_of_ne m ρ c main_v1 (by decide)).trans (W3_v1 m ρ c)

theorem W4_v3 (c : Dev nD) : W4 m ρ c (Proc.devRef .tc main_v3) = kDst (m ((c : Thread nD τ).loc main_arg1)) :=
  (W4_of_ne m ρ c main_v3 (by decide)).trans (W3_v3 m ρ c)

theorem W4_arg2 (c : Dev nD) : W4 m ρ c (Proc.devRef .tc main_arg2) = (m ((c : Thread nD τ).loc main_arg2)) :=
  (W4_of_ne m ρ c main_arg2 (by decide)).trans (W3_arg2 m ρ c)

theorem W4_arg6 (c : Dev nD) : W4 m ρ c (Proc.devRef .tc main_arg6) = (m ((c : Thread nD τ).loc main_arg6)) :=
  (W4_of_ne m ρ c main_arg6 (by decide)).trans (W3_arg6 m ρ c)

theorem W4_arg7 (c : Dev nD) : W4 m ρ c (Proc.devRef .tc main_arg7) = (m ((c : Thread nD τ).loc main_arg7)) :=
  (W4_of_ne m ρ c main_arg7 (by decide)).trans (W3_arg7 m ρ c)

theorem W4_arg8 (c : Dev nD) : W4 m ρ c (Proc.devRef .tc main_arg8) = (m ((c : Thread nD τ).loc main_arg8)) :=
  (W4_of_ne m ρ c main_arg8 (by decide)).trans (W3_arg8 m ρ c)

theorem W4_arg9 (c : Dev nD) : W4 m ρ c (Proc.devRef .tc main_arg9) = (m ((c : Thread nD τ).loc main_arg9)) :=
  (W4_of_ne m ρ c main_arg9 (by decide)).trans (W3_arg9 m ρ c)

theorem W4_arg10 (c : Dev nD) : W4 m ρ c (Proc.devRef .tc main_arg10) = (m ((c : Thread nD τ).loc main_arg10)) :=
  (W4_of_ne m ρ c main_arg10 (by decide)).trans (W3_arg10 m ρ c)

theorem W4_v11 (c : Dev nD) : W4 m ρ c (Proc.devRef .tc main_v11) = kDcol (m ((c : Thread nD τ).loc main_arg1)) :=
  ((W4_arr m ρ c 2).trans (((dat1 (V3 m ρ) c).arrAt_in 2 rfl _).trans (A_eq1 (V3 m ρ) c 2))).trans (W3_v11 m ρ c)

theorem W4_v25_0 (c : Dev nD) : W4 m ρ c (Proc.devRef .tc main_v25_0) = kH2 (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ((Cert.KernelIdeal.Regions.arr1_5 (V3 m ρ) c).trans ?_)
  show matProd (combine (W3 m ρ c (Proc.devRef .tc main_v23)) (W3 m ρ c (Proc.devRef .tc main_v12_0)) (W3 m ρ c (Proc.devRef .tc main_v11)) (W3 m ρ c (Proc.devRef .tc main_v24))) (W3 m ρ c (Proc.devRef .tc main_arg5)) = _
  rw [W3_v23 m ρ c, W3_v12_0 m ρ c, W3_v11 m ρ c, W3_v24 m ρ c, W3_arg5 m ρ c]
  try rfl

theorem W4_v25_1 (c : Dev nD) : W4 m ρ c (Proc.devRef .tc main_v25_1) = kHS2 (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 6).trans ((Cert.KernelIdeal.Regions.arr1_6 (V3 m ρ) c).trans ?_)
  show scaleRows (matProd (combine (W3 m ρ c (Proc.devRef .tc main_v23)) (W3 m ρ c (Proc.devRef .tc main_v12_0)) (W3 m ρ c (Proc.devRef .tc main_v11)) (W3 m ρ c (Proc.devRef .tc main_v24))) (W3 m ρ c (Proc.devRef .tc main_arg5))) (W3 m ρ c (Proc.devRef .tc main_v11)) = _
  rw [W3_v23 m ρ c, W3_v12_0 m ρ c, W3_v11 m ρ c, W3_v24 m ρ c, W3_arg5 m ρ c]
  try rfl

theorem W5_v36 (c : Dev nD) : W5 m ρ c (Proc.devRef .tc main_v36) = kAgg (kHS2 (m ((c : Thread nD τ).loc main_arg0)) (m ((c : Thread nD τ).loc main_arg1)) (m ((c : Thread nD τ).loc main_arg3)) (m ((c : Thread nD τ).loc main_arg4)) (m ((c : Thread nD τ).loc main_arg5))) (m ((c : Thread nD τ).loc main_arg1)) := by
  show StableHlo.after hostOps2 (W4 m ρ c) (Proc.devRef .tc main_v36) = _
  dsimp only [hostOps2]
  after_results_simp
  rw [W4_v1 m ρ c, W4_v3 m ρ c, W4_v25_1 m ρ c]
  try rfl

theorem W5_v37 (c : Dev nD) : W5 m ρ c (Proc.devRef .tc main_v37) = kB (m ((c : Thread nD τ).loc main_arg6)) := by
  show StableHlo.after hostOps2 (W4 m ρ c) (Proc.devRef .tc main_v37) = _
  dsimp only [hostOps2]
  after_results_simp
  rw [W4_arg6 m ρ c]
  try rfl

theorem W5_v25_0 (c : Dev nD) : W5 m ρ c (Proc.devRef .tc main_v25_0) = kH2 (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) (Proc.devRef .tc main_v25_0) = _
  dsimp only [hostOps2]
  after_results_simp
  exact W4_v25_0 m ρ c

theorem W5_v11 (c : Dev nD) : W5 m ρ c (Proc.devRef .tc main_v11) = kDcol (m ((c : Thread nD τ).loc main_arg1)) := by
  show StableHlo.after hostOps2 (W4 m ρ c) (Proc.devRef .tc main_v11) = _
  dsimp only [hostOps2]
  after_results_simp
  exact W4_v11 m ρ c

theorem W5_arg2 (c : Dev nD) : W5 m ρ c (Proc.devRef .tc main_arg2) = (m ((c : Thread nD τ).loc main_arg2)) := by
  show StableHlo.after hostOps2 (W4 m ρ c) (Proc.devRef .tc main_arg2) = _
  dsimp only [hostOps2]
  after_results_simp
  exact W4_arg2 m ρ c

theorem W5_arg7 (c : Dev nD) : W5 m ρ c (Proc.devRef .tc main_arg7) = (m ((c : Thread nD τ).loc main_arg7)) := by
  show StableHlo.after hostOps2 (W4 m ρ c) (Proc.devRef .tc main_arg7) = _
  dsimp only [hostOps2]
  after_results_simp
  exact W4_arg7 m ρ c

theorem W5_arg8 (c : Dev nD) : W5 m ρ c (Proc.devRef .tc main_arg8) = (m ((c : Thread nD τ).loc main_arg8)) := by
  show StableHlo.after hostOps2 (W4 m ρ c) (Proc.devRef .tc main_arg8) = _
  dsimp only [hostOps2]
  after_results_simp
  exact W4_arg8 m ρ c

theorem W5_arg9 (c : Dev nD) : W5 m ρ c (Proc.devRef .tc main_arg9) = (m ((c : Thread nD τ).loc main_arg9)) := by
  show StableHlo.after hostOps2 (W4 m ρ c) (Proc.devRef .tc main_arg9) = _
  dsimp only [hostOps2]
  after_results_simp
  exact W4_arg9 m ρ c

theorem W5_arg10 (c : Dev nD) : W5 m ρ c (Proc.devRef .tc main_arg10) = (m ((c : Thread nD τ).loc main_arg10)) := by
  show StableHlo.after hostOps2 (W4 m ρ c) (Proc.devRef .tc main_arg10) = _
  dsimp only [hostOps2]
  after_results_simp
  exact W4_arg10 m ρ c

theorem W6_arg2 (c : Dev nD) : W6 m ρ c (Proc.devRef .tc main_arg2) = (m ((c : Thread nD τ).loc main_arg2)) :=
  (W6_of_ne m ρ c main_arg2 (by decide)).trans (W5_arg2 m ρ c)

theorem W6_arg7 (c : Dev nD) : W6 m ρ c (Proc.devRef .tc main_arg7) = (m ((c : Thread nD τ).loc main_arg7)) :=
  (W6_of_ne m ρ c main_arg7 (by decide)).trans (W5_arg7 m ρ c)

theorem W6_arg8 (c : Dev nD) : W6 m ρ c (Proc.devRef .tc main_arg8) = (m ((c : Thread nD τ).loc main_arg8)) :=
  (W6_of_ne m ρ c main_arg8 (by decide)).trans (W5_arg8 m ρ c)

theorem W6_arg9 (c : Dev nD) : W6 m ρ c (Proc.devRef .tc main_arg9) = (m ((c : Thread nD τ).loc main_arg9)) :=
  (W6_of_ne m ρ c main_arg9 (by decide)).trans (W5_arg9 m ρ c)

theorem W6_arg10 (c : Dev nD) : W6 m ρ c (Proc.devRef .tc main_arg10) = (m ((c : Thread nD τ).loc main_arg10)) :=
  (W6_of_ne m ρ c main_arg10 (by decide)).trans (W5_arg10 m ρ c)

theorem W6_v38 (c : Dev nD) : W6 m ρ c (Proc.devRef .tc main_v38) = kC2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W6_arr m ρ c 4).trans ((Cert.KernelIdeal.Regions.arr2_4 (V5 m ρ) c).trans ?_)
  show combine (W5 m ρ c (Proc.devRef .tc main_v36)) (W5 m ρ c (Proc.devRef .tc main_v25_0)) (W5 m ρ c (Proc.devRef .tc main_v11)) (W5 m ρ c (Proc.devRef .tc main_v37)) = _
  rw [W5_v36 m ρ c, W5_v25_0 m ρ c, W5_v11 m ρ c, W5_v37 m ρ c]
  try rfl

theorem W7_v50 (c : Dev nD) : W7 m ρ c (Proc.devRef .tc main_v50) = kPool (m ((c : Thread nD τ).loc main_arg2)) (kC2 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  show StableHlo.after hostOps3 (W6 m ρ c) (Proc.devRef .tc main_v50) = _
  dsimp only [hostOps3]
  after_results_simp
  rw [W6_v38 m ρ c, W6_arg2 m ρ c]
  try rfl

theorem W7_v51 (c : Dev nD) : W7 m ρ c (Proc.devRef .tc main_v51) = kB (m ((c : Thread nD τ).loc main_arg8)) := by
  show StableHlo.after hostOps3 (W6 m ρ c) (Proc.devRef .tc main_v51) = _
  dsimp only [hostOps3]
  after_results_simp
  rw [W6_arg8 m ρ c]
  try rfl

theorem W7_v52 (c : Dev nD) : W7 m ρ c (Proc.devRef .tc main_v52) = kB (m ((c : Thread nD τ).loc main_arg9)) := by
  show StableHlo.after hostOps3 (W6 m ρ c) (Proc.devRef .tc main_v52) = _
  dsimp only [hostOps3]
  after_results_simp
  rw [W6_arg9 m ρ c]
  try rfl

theorem W7_v53 (c : Dev nD) : W7 m ρ c (Proc.devRef .tc main_v53) = kB (m ((c : Thread nD τ).loc main_arg10)) := by
  show StableHlo.after hostOps3 (W6 m ρ c) (Proc.devRef .tc main_v53) = _
  dsimp only [hostOps3]
  after_results_simp
  rw [W6_arg10 m ρ c]
  try rfl

theorem W7_arg7 (c : Dev nD) : W7 m ρ c (Proc.devRef .tc main_arg7) = (m ((c : Thread nD τ).loc main_arg7)) := by
  show StableHlo.after hostOps3 (W6 m ρ c) (Proc.devRef .tc main_arg7) = _
  dsimp only [hostOps3]
  after_results_simp
  exact W6_arg7 m ρ c

theorem W8_v54 (c : Dev nD) : W8 m ρ c (Proc.devRef .tc main_v54) = kOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W8_arr m ρ c 5).trans ((Cert.KernelIdeal.Regions.arr3_5 (V7 m ρ) c).trans ?_)
  show head (W7 m ρ c (Proc.devRef .tc main_v50)) (W7 m ρ c (Proc.devRef .tc main_arg7)) (W7 m ρ c (Proc.devRef .tc main_v51)) (W7 m ρ c (Proc.devRef .tc main_v52)) (W7 m ρ c (Proc.devRef .tc main_v53)) = _
  rw [W7_v50 m ρ c, W7_arg7 m ρ c, W7_v51 m ρ c, W7_v52 m ρ c, W7_v53 m ρ c]
  try rfl

end Cert.KernelIdeal.Stages

end
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«174452_j12352325943369_2_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibHostRows.lean ====
/-
  The reference's sum along each row of an a×b array, on the extended reals, read at an index: the initial value plus
  the sum over the row's entries. Nothing here mentions a program.
-/
import Idealize.ShloMosaic.PureOps.Ideal
import Idealize.ShloMosaic.PureOps.Ideal.Laws
import Idealize.ShloMosaic.Lib.ValueIdx
import proofs.«174452_j12352325943369_2_alg».proof.Proof.LibRowReductions

open scoped BigOperators

namespace Cert.Lib.HostRows

open Idealize.ShloMosaic Idealize.ShloMosaic.ValueIdx

variable {a b : Nat}

/-- The reference's one-operand reduce with an add body along each row of an a×b array is at p the initial value's
    element plus the sum over k of the array at (p, k). -/
theorem host_rowsum_apply {u : Shape} (x : FVec Ideal ⟨2, ![a, b]⟩ .f32) (init : u.Idx → Ideal .f32)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  simp only [Host.reduceAdd, Ideal.hostReduceAdd_def]
  rw [Ideal.hostReduceAdd_single h' h]
  exact congrArg (_ + ·) (Finset.sum_congr rfl fun k _ => congrArg x (Cert.Lib.RowReductions.lift_row h p k))

end Cert.Lib.HostRows
-- ==== Proof.RefHead.lean ====
/-
  The last stage of the reference program is the normalised linear head of the pooled array: the product of the
  pooled rows with the weights plus a bias row, every row centred at its mean, divided by the root of its mean
  squared deviation plus a small constant, then scaled and shifted entry by entry.
-/
import proofs.«174452_j12352325943369_2_alg».proof.Proof.Gen.ReferenceIdeal.Read
import proofs.«174452_j12352325943369_2_alg».proof.Proof.GcnSpec
import proofs.«174452_j12352325943369_2_alg».proof.Proof.LibMatProd
import proofs.«174452_j12352325943369_2_alg».proof.Proof.LibRowReductions
import proofs.«174452_j12352325943369_2_alg».proof.Proof.LibRowVector
import proofs.«174452_j12352325943369_2_alg».proof.Proof.LibHostRows

open scoped BigOperators

noncomputable section

namespace Cert.ReferenceIdeal.RefHead

open Cert.ReferenceIdeal Cert.ReferenceIdeal.Gen Cert.ReferenceIdeal.Read Idealize.ShloMosaic Idealize.ShloMosaic.ValueIdx
open Cert.Lib.MatProd Cert.Lib.RowVector Cert.Gcn

/-- The product of the pooled array with the weights plus the bias vector repeated down the rows: entry (p, q) is the
    sum over k of P(p, k) · W(k, q), plus entry q of the bias. -/
theorem stage_bias (x0 : (⟨S100000x64, .f32⟩ : BufTy).Contents (Elt Ideal)) (x1 : (⟨S2x800000, .i32⟩ : BufTy).Contents (Elt Ideal)) (x2 : (⟨S100000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) :
    val_main_v109 (F := Ideal) x0 x1 x2 x3 x4 x5 x6 x7 x8
      = biasRows (matProd (val_main_v105 (F := Ideal) x0 x1 x2 x3 x4 x5 x6) x7) (asRow x8) := by
  funext i
  obtain ⟨p, q, rfl⟩ : ∃ (p : Fin 256) (q : Fin 128), i = ix2 p q := ⟨i 0, i 1, eq_ix2 i⟩
  rw [val_main_v109_apply, val_main_v106_apply, val_main_v108_apply, val_main_v107_apply]
  have e1 : ∀ k : Fin 128, lidx_main_v106 (ix2 p q) k = ix2 p k := fun k => eq_ix2 _
  have e2 : ∀ k : Fin 128, ridx_main_v106 (ix2 p q) k = ix2 k q := fun k => eq_ix2 _
  have e3 : idx_main_v107 (idx_main_v108 (ix2 p q)) = ix1 q := eq_ix1 _
  simp only [e1, e2, e3]
  rfl

/-- The quotient of a row's sum by the word of 128 is the row's mean: the sum starts from the zero word, which adds
    nothing. -/
theorem stage_mean (x0 : (⟨S100000x64, .f32⟩ : BufTy).Contents (Elt Ideal)) (x1 : (⟨S2x800000, .i32⟩ : BufTy).Contents (Elt Ideal)) (x2 : (⟨S100000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (p : Fin 256) :
    val_main_v113 (F := Ideal) x0 x1 x2 x3 x4 x5 x6 x7 x8 (ix2 p 0)
      = rowMean c128 (val_main_v109 (F := Ideal) x0 x1 x2 x3 x4 x5 x6 x7 x8) p := by
  rw [val_main_v113_apply, val_main_v111_apply, val_main_v110_apply, val_main_v112_apply, val_main_cst_23_apply,
    val_main_cst_22_apply]
  have e : ∀ k : Fin 128, idx_main_v110 (idx_main_v111 (ix2 p 0)) k = ix2 p k := fun k => eq_ix2 _
  simp only [e]
  show Ideal.div (Ideal.ofBits .f32 0x00000000#32 + _) _ = _
  rw [Ideal.ofBits_zero_f32, zero_add]
  rfl

/-- The quotient by the word of 128 of the sum of a row's squared deviations from its mean is the row's mean squared
    deviation. -/
theorem stage_var (x0 : (⟨S100000x64, .f32⟩ : BufTy).Contents (Elt Ideal)) (x1 : (⟨S2x800000, .i32⟩ : BufTy).Contents (Elt Ideal)) (x2 : (⟨S100000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal)) (p : Fin 256) :
    val_main_v120 (F := Ideal) x0 x1 x2 x3 x4 x5 x6 x7 x8 (ix2 p 0)
      = rowVar c128 (val_main_v109 (F := Ideal) x0 x1 x2 x3 x4 x5 x6 x7 x8) p := by
  rw [val_main_v120_apply, val_main_v118_apply, val_main_v117_apply, val_main_v119_apply, val_main_cst_25_apply,
    val_main_cst_24_apply]
  have e : ∀ k : Fin 128, idx_main_v117 (idx_main_v118 (ix2 p 0)) k = ix2 p k := fun k => eq_ix2 _
  have e' : ∀ k : Fin 128, idx_main_v114 (ix2 p k) = ix2 p 0 := fun k => eq_ix2 _
  simp only [e, val_main_v116_apply, val_main_v115_apply, val_main_v114_apply, e', stage_mean]
  show Ideal.div (Ideal.ofBits .f32 0x00000000#32 + _) _ = _
  rw [Ideal.ofBits_zero_f32, zero_add]
  rfl

/-- The reference's last stage is the head of the pooled array, the weights and the three vectors as rows. -/
theorem ref_head (x0 : (⟨S100000x64, .f32⟩ : BufTy).Contents (Elt Ideal)) (x1 : (⟨S2x800000, .i32⟩ : BufTy).Contents (Elt Ideal)) (x2 : (⟨S100000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
    (x7 : (⟨S128x128, .f32⟩ : BufTy).Contents (Elt Ideal)) (x8 x9 x10 : (⟨S128, .f32⟩ : BufTy).Contents (Elt Ideal)) :
    val_main_v133 (F := Ideal) x0 x1 x2 x3 x4 x5 x6 x7 x8 x9 x10
      = head (val_main_v105 (F := Ideal) x0 x1 x2 x3 x4 x5 x6) x7 (asRow x8) (asRow x9) (asRow x10) := by
  funext i
  obtain ⟨p, q, rfl⟩ : ∃ (p : Fin 256) (q : Fin 128), i = ix2 p q := ⟨i 0, i 1, eq_ix2 i⟩
  rw [val_main_v133_apply, val_main_v130_apply, val_main_v132_apply, val_main_v131_apply, val_main_v129_apply,
    val_main_v128_apply, val_main_v127_apply, val_main_v126_apply, val_main_v125_apply, val_main_v124_apply,
    val_main_v123_apply, val_main_cst_26_apply, val_main_v122_apply, val_main_v121_apply]
  have e1 : idx_main_v126 (ix2 p q) = ix2 p 0 := eq_ix2 _
  have e2 : idx_main_v121 (ix2 p q) = ix2 p 0 := eq_ix2 _
  have e3 : idx_main_v128 (idx_main_v129 (ix2 p q)) = ix1 q := eq_ix1 _
  have e4 : idx_main_v131 (idx_main_v132 (ix2 p q)) = ix1 q := eq_ix1 _
  rw [e1, e2, e3, e4, stage_var, stage_mean, stage_bias]
  rfl

end Cert.ReferenceIdeal.RefHead

end
-- ==== Proof.LibScatterRows.lean ====
/-
  A host scatter whose every update is one row of D entries, addressed by a one-component index: the operand is
  an N×D array, there are M update rows, and row r of the updates is aimed at the operand row whose number is the
  signed reading of index word r; its entry q goes to entry q of that row. An update row whose number is outside
  0 … N − 1 is dropped. Here: update (r, q) lands on element (p, q') exactly when index word r reads p and q = q';
  and, on the extended reals with an add body, the result at (p, q') is the operand's element plus the sum of the
  update entries (r, q') over the rows r whose index word reads p.
-/
import Idealize.ShloMosaic.PureOps.Ideal
import Idealize.ShloMosaic.PureOps.Ideal.Laws
import Idealize.ShloMosaic.Lib.ValueIdx

noncomputable section

namespace Cert.Lib.ScatterRows

open Idealize.ShloMosaic Idealize.ShloMosaic.ValueIdx

variable {N M D w : Nat}

/-- The dimension numbers of such a scatter: axis 1 of the updates is the window axis (a row's entries), the
    operand's axis 0 is inserted and addressed by component 0 of the index vector, the index vector along axis 1. -/
abbrev dims (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ :=
  ScatterDims.mk [1] [0] [0] 1 wf

/-- Update (r, q) reads its index at row r of the M×1 index array. -/
theorem siIdx_eq (wf : ScatterDims.WF ⟨2, ![N, D]⟩ ⟨2, ![M, 1]⟩ ⟨2, ![M, D]⟩ [1] [0] [0] 1)
    (j : (⟨2, ![M, D]⟩ : Shape).Idx) (c : Fin (dims wf).scatterDimsToOperandDims.length) :
    (dims wf).siIdx j c = ix2 (⟨(j 0).val, idx2_lt0 j⟩ : Fin M) (0 : Fin 1) := by
  funext b
  apply Fin.ext
  match b with
  | ⟨0, _⟩ => rfl
  | ⟨1, _⟩ =>
    have : c.val < 1 := c.isLt
    have : c.val = 0 := by omega
    show c.val = 0
    exact this

/-- On the operand's row axis the start of update (r, q) is the signed reading of index word r. -/
theorem start_zero (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (0 : Fin 2) = (idx (ix2 (⟨(j 0).val, idx2_lt0 j⟩ : Fin M) (0 : Fin 1))).toInt := by
  unfold ScatterDims.start
  have ha : (0 : Fin 2) ∈ ([0] : List (Fin 2)) := List.mem_singleton_self _
  rw [dif_pos ha]
  exact congrArg (fun k => (idx k).toInt) (siIdx_eq wf j _)

/-- On the operand's entry axis, which no index component names, the start is 0. -/
theorem start_one (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) :
    (dims wf).start j idx (1 : Fin 2) = 0 := by
  unfold ScatterDims.start
  rw [dif_neg (show (1 : Fin 2) ∉ ([0] : List (Fin 2)) from by decide)]

/-- An update has no extent along the operand's row axis. -/
theorem window_zero (wf : ScatterDims.WF ⟨2, ![N, D]⟩ ⟨2, ![M, 1]⟩ ⟨2, ![M, D]⟩ [1] [0] [0] 1)
    (j : (⟨2, ![M, D]⟩ : Shape).Idx) : (dims wf).window j (0 : Fin 2) = 0 := by
  unfold ScatterDims.window
  rw [dif_neg]
  show (0 : Fin 2) ∉ (List.finRange 2).filter (· ∉ ([0] : List (Fin 2)))
  decide

/-- Along the operand's entry axis the window coordinate of update (r, q) is q. -/
theorem window_one (wf : ScatterDims.WF ⟨2, ![N, D]⟩ ⟨2, ![M, 1]⟩ ⟨2, ![M, D]⟩ [1] [0] [0] 1)
    (j : (⟨2, ![M, D]⟩ : Shape).Idx) : (dims wf).window j (1 : Fin 2) = (j 1).val := by
  unfold ScatterDims.window
  have h1 : (1 : Fin 2) ∈ (dims wf).sKept := by
    show (1 : Fin 2) ∈ (List.finRange 2).filter (· ∉ ([0] : List (Fin 2)))
    decide
  rw [dif_pos h1]
  rfl

/-- Update (r, q) lands on element (p, q') exactly when the index word of row r, read signed, is p, and q = q'. -/
theorem resultIdx_iff (wf : ScatterDims.WF ⟨2, ![N, D]⟩ ⟨2, ![M, 1]⟩ ⟨2, ![M, D]⟩ [1] [0] [0] 1)
    (j : (⟨2, ![M, D]⟩ : Shape).Idx) (idx : IVec ⟨2, ![M, 1]⟩ w) (i : (⟨2, ![N, D]⟩ : Shape).Idx) :
    (dims wf).resultIdx? j idx = some i ↔
      (idx (ix2 (⟨(j 0).val, idx2_lt0 j⟩ : Fin M) (0 : Fin 1))).toInt = ((i 0).val : Int) ∧ (j 1).val = (i 1).val := by
  unfold ScatterDims.resultIdx?
  have hlt0 : (i 0).val < N := idx2_lt0 i
  have hlt1 : (i 1).val < D := idx2_lt1 i
  have hj1 : (j 1).val < D := idx2_lt1 j
  constructor
  · intro h
    split_ifs at h with hc
    have h0 : ((dims wf).start j idx 0 + ((dims wf).window j 0 : Nat)).toNat = (i 0).val :=
      congrArg (fun k => (k 0).val) (Option.some.inj h)
    have h1 : ((dims wf).start j idx 1 + ((dims wf).window j 1 : Nat)).toNat = (i 1).val :=
      congrArg (fun k => (k 1).val) (Option.some.inj h)
    have hc0 := hc 0
    rw [start_zero, window_zero] at hc0 h0
    rw [start_one, window_one] at h1
    constructor
    · omega
    · omega
  · rintro ⟨h, hq⟩
    have hc : ∀ a : Fin 2, 0 ≤ (dims wf).start j idx a + ((dims wf).window j a : Nat)
        ∧ (dims wf).start j idx a + ((dims wf).window j a : Nat) < ((⟨2, ![N, D]⟩ : Shape).size a : Nat) := fun a => by
      match a with
      | ⟨0, _⟩ =>
        show 0 ≤ (dims wf).start j idx (0 : Fin 2) + ((dims wf).window j (0 : Fin 2) : Nat)
          ∧ (dims wf).start j idx (0 : Fin 2) + ((dims wf).window j (0 : Fin 2) : Nat) < (N : Int)
        rw [start_zero, window_zero, h]
        omega
      | ⟨1, _⟩ =>
        show 0 ≤ (dims wf).start j idx (1 : Fin 2) + ((dims wf).window j (1 : Fin 2) : Nat)
          ∧ (dims wf).start j idx (1 : Fin 2) + ((dims wf).window j (1 : Fin 2) : Nat) < (D : Int)
        rw [start_one, window_one]
        omega
    rw [dif_pos hc]
    congr 1
    funext a
    apply Fin.ext
    match a with
    | ⟨0, _⟩ =>
      show ((dims wf).start j idx (0 : Fin 2) + ((dims wf).window j (0 : Fin 2) : Nat)).toNat = (i 0).val
      rw [start_zero, window_zero, h]
      omega
    | ⟨1, _⟩ =>
      show ((dims wf).start j idx (1 : Fin 2) + ((dims wf).window j (1 : Fin 2) : Nat)).toNat = (i 1).val
      rw [start_one, window_one]
      omega

/-- The accumulating scatter at element (p, q'): the operand's element plus the update entries (r, q) with q = q'
    whose row's index word reads p. -/
theorem scatterAdd_apply (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w) (upd : (⟨2, ![M, D]⟩ : Shape).Idx → EReal)
    (i : (⟨2, ![N, D]⟩ : Shape).Idx) :
    Ideal.hostScatterAdd (dims wf) x idx upd i
      = x i + ∑ j : (⟨2, ![M, D]⟩ : Shape).Idx,
          if (idx (ix2 (⟨(j 0).val, idx2_lt0 j⟩ : Fin M) (0 : Fin 1))).toInt = ((i 0).val : Int) ∧ (j 1).val = (i 1).val
          then upd j else 0 := by
  unfold Ideal.hostScatterAdd
  rw [Finset.sum_filter]
  congr 1
  refine Finset.sum_congr rfl fun j _ => ?_
  simp only [resultIdx_iff]

end Cert.Lib.ScatterRows

end
-- ==== Proof.LibRowGather.lean ====
/-
  Rows of a table picked by an array of integer words: what `table[idx]` lowers to on the host, read at an index.
  The table has N rows of D entries. Every start word is read as a signed integer and clamped into [0, N − 1]
  (StableHLO's gather clamps each start index so that the one-row slice fits); the result's row b is the table's
  row at that clamped position, entry for entry. Two spellings of the index array occur: B×1 words giving a B×D
  result, and B×1×1 words giving a B×1×D result. Nothing here mentions a program.
-/
import Idealize.ShloMosaic.PureOps.ShapeOps
import Idealize.ShloMosaic.Lib.ValueIdx

namespace Cert.Lib.RowGather

open Idealize.ShloMosaic Idealize.ShloMosaic.ValueIdx

section Rows
variable {α : Type}

/-- The row of an N-row table that a start word selects: the word read signed, clamped into [0, N − 1]. -/
def rowOf (N : Nat) (hN : 0 < N) {w : Nat} (v : BitVec w) : Fin N := ⟨min v.toInt.toNat (N - 1), by omega⟩

/-- The dimension numbers of a row gather with a B×1 index array: the result's axis 1 is the row's entries, the
    table's axis 0 is collapsed and addressed by the one component of each start index. -/
abbrev rowsDims (N B D : Nat)
    (wf : GatherDims.WF ⟨2, ![N, D]⟩ ⟨2, ![B, 1]⟩ ⟨2, ![B, D]⟩ [1] [0] [] [0] [] 1 ![1, D]) :
    GatherDims ⟨2, ![N, D]⟩ ⟨2, ![B, 1]⟩ ⟨2, ![B, D]⟩ where
  offsetDims := [1]
  collapsedSliceDims := [0]
  operandBatchingDims := []
  startIndicesBatchingDims := []
  startIndexMap := [0]
  indexVectorDim := 1
  sliceSizes := ![1, D]
  wf := wf

/-- Entry (b, q) of the gathered rows is entry q of the table's row selected by the word at (b, 0). -/
theorem gather_rows_apply {N B D w : Nat} (hN : 0 < N)
    (wf : GatherDims.WF ⟨2, ![N, D]⟩ ⟨2, ![B, 1]⟩ ⟨2, ![B, D]⟩ [1] [0] [] [0] [] 1 ![1, D])
    (x : (⟨2, ![N, D]⟩ : Shape).Idx → α) (idx : IVec ⟨2, ![B, 1]⟩ w) (b : Fin B) (q : Fin D) :
    Host.gather (rowsDims N B D wf) x idx (ix2 b q) = x (ix2 (rowOf N hN (idx (ix2 b 0))) q) := by
  unfold Host.gather
  refine congrArg x ?_
  funext a
  refine Fin.ext ?_
  match a with
  | ⟨0, _⟩ =>
    show (rowsDims N B D wf).start (ix2 b q) idx (0 : Fin 2) + (rowsDims N B D wf).batchCoord (ix2 b q) (0 : Fin 2)
        + (rowsDims N B D wf).offCoord (ix2 b q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N B D wf).startIndexMap from List.mem_singleton.mpr rfl)]
    have hsi : (rowsDims N B D wf).siIdx (ix2 b q) ⟨List.idxOf (0 : Fin 2) (rowsDims N B D wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    have hs : (rowsDims N B D wf).start (ix2 b q) idx (1 : Fin 2) = 0 := by
      unfold GatherDims.start
      rw [dif_neg (show (1 : Fin 2) ∉ [(0 : Fin 2)] from by decide)]
    have ho : (rowsDims N B D wf).offCoord (ix2 b q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims N B D wf).start (ix2 b q) idx (1 : Fin 2) + (rowsDims N B D wf).batchCoord (ix2 b q) (1 : Fin 2)
        + (rowsDims N B D wf).offCoord (ix2 b q) (1 : Fin 2) = q.val
    rw [GatherDims.batchCoord_eq_zero _ _ _ List.not_mem_nil, hs, ho]; omega

/-- The dimension numbers of a row gather with a B×1×1 index array: the result is B×1×D, its last axis the row's
    entries. -/
abbrev rowsDims3 (N B D : Nat)
    (wf : GatherDims.WF ⟨2, ![N, D]⟩ ⟨3, ![B, 1, 1]⟩ ⟨3, ![B, 1, D]⟩ [2] [0] [] [0] [] 2 ![1, D]) :
    GatherDims ⟨2, ![N, D]⟩ ⟨3, ![B, 1, 1]⟩ ⟨3, ![B, 1, D]⟩ where
  offsetDims := [2]
  collapsedSliceDims := [0]
  operandBatchingDims := []
  startIndicesBatchingDims := []
  startIndexMap := [0]
  indexVectorDim := 2
  sliceSizes := ![1, D]
  wf := wf

/-- Entry (b, 0, q) of the gathered rows is entry q of the table's row selected by the word at (b, 0, 0). -/
theorem gather_rows3_apply {N B D w : Nat} (hN : 0 < N)
    (wf : GatherDims.WF ⟨2, ![N, D]⟩ ⟨3, ![B, 1, 1]⟩ ⟨3, ![B, 1, D]⟩ [2] [0] [] [0] [] 2 ![1, D])
    (x : (⟨2, ![N, D]⟩ : Shape).Idx → α) (idx : IVec ⟨3, ![B, 1, 1]⟩ w) (b : Fin B) (q : Fin D) :
    Host.gather (rowsDims3 N B D wf) x idx (ix3 b 0 q) = x (ix2 (rowOf N hN (idx (ix3 b 0 0))) q) := by
  unfold Host.gather
  refine congrArg x ?_
  funext a
  refine Fin.ext ?_
  match a with
  | ⟨0, _⟩ =>
    show (rowsDims3 N B D wf).start (ix3 b 0 q) idx (0 : Fin 2) + (rowsDims3 N B D wf).batchCoord (ix3 b 0 q) (0 : Fin 2)
        + (rowsDims3 N B D wf).offCoord (ix3 b 0 q) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims3 N B D wf).startIndexMap from List.mem_singleton.mpr rfl)]
    have hsi : (rowsDims3 N B D wf).siIdx (ix3 b 0 q) ⟨List.idxOf (0 : Fin 2) (rowsDims3 N B D wf).startIndexMap,
        List.idxOf_lt_length_iff.2 (List.mem_singleton.mpr rfl)⟩ = ix3 b 0 0 := by
      funext c; refine Fin.ext ?_
      match c with
      | ⟨0, _⟩ => rfl
      | ⟨1, _⟩ => rfl
      | ⟨2, _⟩ => rfl
    rw [hsi]
    rfl
  | ⟨1, _⟩ =>
    have hs : (rowsDims3 N B D wf).start (ix3 b 0 q) idx (1 : Fin 2) = 0 := by
      unfold GatherDims.start
      rw [dif_neg (show (1 : Fin 2) ∉ [(0 : Fin 2)] from by decide)]
    have ho : (rowsDims3 N B D wf).offCoord (ix3 b 0 q) (1 : Fin 2) = q.val := by
      unfold GatherDims.offCoord
      rw [dif_pos ((GatherDims.mem_sKept _ _).mpr ⟨(show (1 : Fin 2) ∉ [(0 : Fin 2)] from by decide), List.not_mem_nil⟩)]
      rfl
    show (rowsDims3 N B D wf).start (ix3 b 0 q) idx (1 : Fin 2) + (rowsDims3 N B D wf).batchCoord (ix3 b 0 q) (1 : Fin 2)
        + (rowsDims3 N B D wf).offCoord (ix3 b 0 q) (1 : Fin 2) = q.val
    rw [GatherDims.batchCoord_eq_zero _ _ _ List.not_mem_nil, hs, ho]; omega

end Rows

end Cert.Lib.RowGather
-- ==== Proof.LibVecGather.lean ====
/-
  Entries of a one-axis table picked by an array of integer words: what `table[idx]` of a flat table lowers to on
  the host when the words sit in a B×1 array, read at an index. The table has N entries. Every start word is read
  as a signed integer and clamped into [0, N − 1] (the gather clamps each start index so that the one-entry slice
  fits); entry b of the result is the table's entry at that clamped position. Nothing here mentions a program.
-/
import Idealize.ShloMosaic.PureOps.ShapeOps
import Idealize.ShloMosaic.Lib.ValueIdx
import proofs.«174452_j12352325943369_2_alg».proof.Proof.LibRowGather

namespace Cert.Lib.VecGather

open Idealize.ShloMosaic Idealize.ShloMosaic.ValueIdx

variable {α : Type} {N B w : Nat}

/-- The dimension numbers of an entry gather with a B×1 index array: no offset axes in the result, the table's
    one axis collapsed and addressed by the one component of each start index, the index vector along axis 1. -/
abbrev vecDims (N B : Nat) (wf : GatherDims.WF ⟨1, ![N]⟩ ⟨2, ![B, 1]⟩ ⟨1, ![B]⟩ [] [0] [] [0] [] 1 ![1]) :
    GatherDims ⟨1, ![N]⟩ ⟨2, ![B, 1]⟩ ⟨1, ![B]⟩ where
  offsetDims := []
  collapsedSliceDims := [0]
  operandBatchingDims := []
  startIndicesBatchingDims := []
  startIndexMap := [0]
  indexVectorDim := 1
  sliceSizes := ![1]
  wf := wf

/-- Entry b of the gathered vector is the table's entry selected by the word at (b, 0), read signed and clamped
    into [0, N − 1]. -/
theorem gather_vec_apply (hN : 0 < N) (wf : GatherDims.WF ⟨1, ![N]⟩ ⟨2, ![B, 1]⟩ ⟨1, ![B]⟩ [] [0] [] [0] [] 1 ![1])
    (x : (⟨1, ![N]⟩ : Shape).Idx → α) (idx : IVec ⟨2, ![B, 1]⟩ w) (b : Fin B) :
    Host.gather (vecDims N B wf) x idx (ix1 b) = x (ix1 (Cert.Lib.RowGather.rowOf N hN (idx (ix2 b 0)))) := by
  unfold Host.gather
  refine congrArg x ?_
  funext a
  obtain rfl : a = 0 := Subsingleton.elim _ _
  refine Fin.ext ?_
  show (vecDims N B wf).start (ix1 b) idx (0 : Fin 1) + (vecDims N B wf).batchCoord (ix1 b) (0 : Fin 1)
      + (vecDims N B wf).offCoord (ix1 b) (0 : Fin 1) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N B wf).startIndexMap from List.mem_singleton.mpr rfl)]
  have hsi : (vecDims N B wf).siIdx (ix1 b) ⟨List.idxOf (0 : Fin 1) (vecDims N B wf).startIndexMap,
      List.idxOf_lt_length_iff.2 (List.mem_singleton.mpr rfl)⟩ = ix2 b 0 := by
    funext c; refine Fin.ext ?_
    match c with
    | ⟨0, _⟩ => rfl
    | ⟨1, _⟩ => rfl
  rw [hsi]
  rfl

end Cert.Lib.VecGather
-- ==== Proof.LibColumnVector.lean ====
/-
  A vector of r entries as the single column of an r×1 array, read at an index: the re-shaping [r]→[r,1] and a host
  program's broadcast of a vector down the rows of an r×1 array both give that column, and converting the entries of
  the column to floats is converting the entries of the vector. The companion of the single row of a 1×n array.
-/
import Idealize.ShloMosaic.PureOps.Ideal
import Idealize.ShloMosaic.Lib.ValueIdx
import Idealize.ShloMosaic.Lib.Pipeline.Value
import proofs.«174452_j12352325943369_2_alg».proof.Proof.LibRowReductions

namespace Cert.Lib.ColumnVector

open Idealize.ShloMosaic Idealize.ShloMosaic.ValueIdx

variable {α : Type} {r : Nat}

/-- A vector of r entries as the single column of an r×1 array: entry (p, 0) is entry p. -/
def asCol (x : (⟨1, ![r]⟩ : Shape).Idx → α) : (⟨2, ![r, 1]⟩ : Shape).Idx → α := fun i => x (ix1 (i 0))

theorem asCol_apply (x : (⟨1, ![r]⟩ : Shape).Idx → α) (p : Fin r) : asCol x (ix2 p 0) = x (ix1 p) := rfl

/-- Every index of an r×1 array is in column 0. -/
theorem idx_col (i : (⟨2, ![r, 1]⟩ : Shape).Idx) : i = ix2 (i 0) 0 := by
  funext d
  match d with
  | ⟨0, _⟩ => rfl
  | ⟨1, _⟩ =>
    have h : (i 1).val < 1 := (i 1).isLt
    exact Fin.ext (by show (i 1).val = 0; omega)

/-- The re-shaping [r]→[r,1] is `asCol`. -/
theorem shapeCast_eq_asCol (x : (⟨1, ![r]⟩ : Shape).Idx → α) (h : (⟨1, ![r]⟩ : Shape).ShapeCasts ⟨2, ![r, 1]⟩) :
    shapeCast ⟨2, ![r, 1]⟩ x h = asCol x := by
  funext i
  rw [idx_col i]
  exact Cert.Lib.RowReductions.shapeCast_col_apply x h (i 0)

/-- A host program's broadcast of a vector down the rows of an r×1 array is `asCol`. -/
theorem bcastInDim_eq_asCol (x : (⟨1, ![r]⟩ : Shape).Idx → α)
    (h : (⟨1, ![r]⟩ : Shape).BroadcastsInDim ⟨2, ![r, 1]⟩ ![0]) :
    broadcastInDim ⟨2, ![r, 1]⟩ ![0] h x = asCol x := by
  funext i
  rw [idx_col i]
  exact Cert.Lib.RowReductions.bcastInDim_col_apply x h (i 0)

/-- Converting the unsigned entries of a column to floats, on the extended reals, is converting the entries of the
    vector. -/
theorem uitofp_asCol {w : Nat} (x : IVec ⟨1, ![r]⟩ w) :
    uitofp (F := Ideal) .f32 (asCol x) = asCol (uitofp (F := Ideal) .f32 x) := rfl

end Cert.Lib.ColumnVector
-- ==== Proof.LibGcnAggregate.lean ====
/-
  Aggregation of neighbour rows with symmetric per-node factors, on the extended reals.

  N nodes carry rows of D entries (H) and one factor each (d); E edges carry a source word and a destination word.
  One program scales every message by the product of the two endpoint factors, H(s e, q) · (d(s e) · d(t e)), before
  adding it into the destination's row; another scales the source's row once, H(s e, q) · d(s e), adds, and
  multiplies the destination's aggregated row by its factor afterwards. A message is added into row p exactly when
  its destination word reads p, and then its destination factor is d(p): so the two agree as soon as d(p) is a
  nonnegative real number (a finite sum takes such a factor; no other finiteness is asked). Also here: a nonnegative
  index word is left alone by the wrap-around of negative words, and the spellings of both sides as whole-array
  operations. Nothing here mentions a program.
-/
import Idealize.ShloMosaic.PureOps.Ideal
import Idealize.ShloMosaic.PureOps.Ideal.Laws
import Idealize.ShloMosaic.Lib.ValueIdx
import Idealize.ShloMosaic.Lib.Pipeline.Value
import proofs.«174452_j12352325943369_2_alg».proof.Proof.LibScatterRows
import proofs.«174452_j12352325943369_2_alg».proof.Proof.LibRowGather
import proofs.«174452_j12352325943369_2_alg».proof.Proof.LibVecGather
import proofs.«174452_j12352325943369_2_alg».proof.Proof.LibRowReductions
import proofs.«174452_j12352325943369_2_alg».proof.Proof.LibRowVector
import proofs.«174452_j12352325943369_2_alg».proof.Proof.LibColumnVector
import proofs.«174452_j12352325943369_2_alg».proof.Proof.GcnSpec

open scoped BigOperators

noncomputable section

namespace Cert.Lib.GcnAggregate

open Idealize.ShloMosaic Idealize.ShloMosaic.ValueIdx
open Cert.Lib.RowGather Cert.Lib.VecGather Cert.Lib.RowVector Cert.Lib.ColumnVector Cert.Gcn

/-- A finite sum of extended reals takes a nonnegative real factor term by term. -/
theorem sum_mul_of_nonneg {ι : Type} (s : Finset ι) (f : ι → EReal) (c : EReal) (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

variable {N E D : Nat}

/-- THE LAW. Messages H(s r, q) · d(s r) added into the rows their destination words read, the sum then multiplied by
    the row's factor, are the messages H(s r, q) · (d(s r) · d(t r)) added into the same rows, when every factor is
    a nonnegative real and t r is the row that r's destination word reads whenever it reads a row at all. -/
theorem aggregate_scale
    (wfS : ScatterDims.WF ⟨2, ![N, D]⟩ ⟨2, ![E, 1]⟩ ⟨2, ![E, D]⟩ [1] [0] [0] 1)
    (H : (⟨2, ![N, D]⟩ : Shape).Idx → EReal) (d : (⟨1, ![N]⟩ : Shape).Idx → EReal)
    (s t : Fin E → Fin N) (dstC : IVec ⟨2, ![E, 1]⟩ 32)
    (hd : ∀ p : Fin N, 0 ≤ d (ix1 p) ∧ d (ix1 p) ≠ ⊤)
    (ht : ∀ (r : Fin E) (p : Fin N), (dstC (ix2 r 0)).toInt = (p.val : Int) → t r = p)
    (Z : (⟨2, ![N, D]⟩ : Shape).Idx → EReal) (hZ : ∀ i, Z i = 0)
    (msgK msgR : (⟨2, ![E, D]⟩ : Shape).Idx → EReal)
    (hK : ∀ (r : Fin E) (q : Fin D), msgK (ix2 r q) = H (ix2 (s r) q) * d (ix1 (s r)))
    (hR : ∀ (r : Fin E) (q : Fin D), msgR (ix2 r q) = H (ix2 (s r) q) * (d (ix1 (s r)) * d (ix1 (t r))))
    (p : Fin N) (q : Fin D) :
    Ideal.hostScatterAdd (Cert.Lib.ScatterRows.dims wfS) Z dstC msgK (ix2 p q) * d (ix1 p)
      = Ideal.hostScatterAdd (Cert.Lib.ScatterRows.dims wfS) Z dstC msgR (ix2 p q) := by
  rw [Cert.Lib.ScatterRows.scatterAdd_apply, Cert.Lib.ScatterRows.scatterAdd_apply, hZ, zero_add, zero_add,
    sum_mul_of_nonneg _ _ _ (hd p).1 (hd p).2]
  refine Finset.sum_congr rfl fun j _ => ?_
  obtain ⟨r, q', rfl⟩ : ∃ (r : Fin E) (q' : Fin D), j = ix2 r q' := ⟨j 0, j 1, eq_ix2 j⟩
  by_cases h : (dstC (ix2 (⟨(ix2 r q' 0).val, idx2_lt0 (ix2 r q')⟩ : Fin E) (0 : Fin 1))).toInt
      = (((ix2 p q : (⟨2, ![N, D]⟩ : Shape).Idx) 0).val : Int) ∧ ((ix2 r q' : (⟨2, ![E, D]⟩ : Shape).Idx) 1).val
        = ((ix2 p q : (⟨2, ![N, D]⟩ : Shape).Idx) 1).val
  · rw [if_pos h, if_pos h, hK, hR, ht r p h.1, mul_assoc]
  · rw [if_neg h, if_neg h, zero_mul]

/-! ## The one-factor side as a whole-array operation -/

/-- Rows gathered from HS at the source words, added into the rows the destination words read, from zeros: the
    aggregate of the program that scales the source rows once. -/
def aggregate (wfS : ScatterDims.WF ⟨2, ![N, D]⟩ ⟨2, ![E, 1]⟩ ⟨2, ![E, D]⟩ [1] [0] [0] 1)
    (wfG : GatherDims.WF ⟨2, ![N, D]⟩ ⟨2, ![E, 1]⟩ ⟨2, ![E, D]⟩ [1] [0] [] [0] [] 1 ![1, D])
    (hb : (⟨0, ![]⟩ : Shape).BroadcastsInDim ⟨2, ![N, D]⟩ ![])
    (HS : (⟨2, ![N, D]⟩ : Shape).Idx → EReal) (srcC dstC : IVec ⟨2, ![E, 1]⟩ 32) :
    (⟨2, ![N, D]⟩ : Shape).Idx → EReal :=
  Ideal.hostScatterAdd (Cert.Lib.ScatterRows.dims wfS)
    (broadcastInDim ⟨2, ![N, D]⟩ ![] hb (constant (F := Ideal) ⟨0, ![]⟩ .f32 0x00000000#32)) dstC
    (Host.gather (rowsDims N E D wfG) HS srcC)

/-! ## Index words -/

/-- A word that reads a nonnegative number is not moved by the wrap-around of negative words. -/
theorem wrap_of_nonneg (n v : BitVec 32) (h : 0 ≤ v.toInt) :
    Scalar.select (IntOp.cmpi .slt v 0#32) (IntOp.addi v n) v = v := by
  have hs : v.slt 0#32 = false := by
    cases hb : v.slt 0#32 with
    | false => rfl
    | true =>
      have hlt : v.toInt < (0#32 : BitVec 32).toInt := BitVec.slt_iff_toInt_lt.mp hb
      have h0 : (0#32 : BitVec 32).toInt = 0 := by decide
      omega
  have hc : IntOp.cmpi .slt v 0#32 = 0#1 := by
    show BitVec.ofBool (v.slt 0#32) = 0#1
    rw [hs]; rfl
  rw [hc]
  exact select_zero _ _

/-- A word that reads the row number p of a table of N rows selects row p. -/
theorem rowOf_of_toInt (hN : 0 < N) (v : BitVec 32) (p : Fin N) (h : v.toInt = (p.val : Int)) : rowOf N hN v = p := by
  apply Fin.ext
  show min v.toInt.toNat (N - 1) = p.val
  have := p.isLt
  rw [h]
  simp only [Int.toNat_natCast]
  omega

end Cert.Lib.GcnAggregate

end
-- ==== Proof.LibScatterCount.lean ====
/-
  A host scatter with an add body whose every update is one element, addressed by a one-component
  index: the operand has N elements, there are M updates, update j lands on the element whose number
  is the signed reading of index word j (and is dropped when that number is outside 0 … N − 1).
  On the extended reals the result at element i is the operand's element plus the sum of the updates
  whose index word reads i.
-/
import Idealize.ShloMosaic.PureOps.Ideal
import Idealize.ShloMosaic.PureOps.Ideal.Laws
import Idealize.ShloMosaic.Lib.ValueIdx

noncomputable section

namespace Cert.Lib.ScatterCount

open Idealize.ShloMosaic Idealize.ShloMosaic.ValueIdx

variable {N M w : Nat}

/-- The dimension numbers of such a scatter: no window axes in the updates, the operand's one axis
    inserted and addressed by component 0 of the index vector, the index vector along axis 1. -/
abbrev dims (wf : ScatterDims.WF ⟨1, ![N]⟩ ⟨2, ![M, 1]⟩ ⟨1, ![M]⟩ [] [0] [0] 1) :
    ScatterDims ⟨1, ![N]⟩ ⟨2, ![M, 1]⟩ ⟨1, ![M]⟩ :=
  ScatterDims.mk [] [0] [0] 1 wf

/-- Update j reads its index at row j of the M×1 index array. -/
theorem siIdx_eq (wf : ScatterDims.WF ⟨1, ![N]⟩ ⟨2, ![M, 1]⟩ ⟨1, ![M]⟩ [] [0] [0] 1)
    (j : (⟨1, ![M]⟩ : Shape).Idx) (c : Fin (dims wf).scatterDimsToOperandDims.length) :
    (dims wf).siIdx j c = ix2 (j 0) 0 := by
  funext b
  apply Fin.ext
  match b with
  | ⟨0, _⟩ => rfl
  | ⟨1, _⟩ =>
    have : c.val < 1 := c.isLt
    have : c.val = 0 := by omega
    show c.val = 0
    exact this

/-- The start of update j on the operand's axis is the signed reading of its index word. -/
theorem start_eq (wf : ScatterDims.WF ⟨1, ![N]⟩ ⟨2, ![M, 1]⟩ ⟨1, ![M]⟩ [] [0] [0] 1)
    (j : (⟨1, ![M]⟩ : Shape).Idx) (idx : IVec ⟨2, ![M, 1]⟩ w) (a : Fin 1) :
    (dims wf).start j idx a = (idx (ix2 (j 0) 0)).toInt := by
  unfold ScatterDims.start
  have ha : a ∈ ([0] : List (Fin 1)) := by rw [Fin.fin_one_eq_zero a]; exact List.mem_singleton_self _
  rw [dif_pos ha]
  exact congrArg (fun k => (idx k).toInt) (siIdx_eq wf j _)

/-- An update has no extent along the operand's axis. -/
theorem window_eq (wf : ScatterDims.WF ⟨1, ![N]⟩ ⟨2, ![M, 1]⟩ ⟨1, ![M]⟩ [] [0] [0] 1)
    (j : (⟨1, ![M]⟩ : Shape).Idx) (a : Fin 1) : (dims wf).window j a = 0 := by
  unfold ScatterDims.window
  rw [dif_neg]
  show a ∉ (List.finRange 1).filter (· ∉ ([0] : List (Fin 1)))
  rw [Fin.fin_one_eq_zero a]
  decide

/-- Update j lands on element i exactly when its index word, read signed, is i. -/
theorem resultIdx_iff (wf : ScatterDims.WF ⟨1, ![N]⟩ ⟨2, ![M, 1]⟩ ⟨1, ![M]⟩ [] [0] [0] 1)
    (j : (⟨1, ![M]⟩ : Shape).Idx) (idx : IVec ⟨2, ![M, 1]⟩ w) (i : (⟨1, ![N]⟩ : Shape).Idx) :
    (dims wf).resultIdx? j idx = some i ↔ (idx (ix2 (j 0) 0)).toInt = ((i 0).val : Int) := by
  unfold ScatterDims.resultIdx?
  have hlt : (i 0).val < N := (i 0).isLt
  constructor
  · intro h
    split_ifs at h with hc
    have h0 : ((dims wf).start j idx 0 + ((dims wf).window j 0 : Nat)).toNat = (i 0).val :=
      congrArg (fun k => (k 0).val) (Option.some.inj h)
    have hc0 := hc 0
    rw [start_eq, window_eq] at hc0 h0
    omega
  · intro h
    have hc : ∀ a : Fin 1, 0 ≤ (dims wf).start j idx a + ((dims wf).window j a : Nat)
        ∧ (dims wf).start j idx a + ((dims wf).window j a : Nat) < ((⟨1, ![N]⟩ : Shape).size a : Nat) := fun a => by
      have := Fin.fin_one_eq_zero a; subst this
      rw [start_eq, window_eq, h]
      show (0 : Int) ≤ ((i 0).val : Int) + ((0 : Nat) : Int) ∧ ((i 0).val : Int) + ((0 : Nat) : Int) < (N : Int)
      omega
    rw [dif_pos hc]
    congr 1
    funext a
    apply Fin.ext
    have := Fin.fin_one_eq_zero a; subst this
    show ((dims wf).start j idx 0 + ((dims wf).window j 0 : Nat)).toNat = (i 0).val
    rw [start_eq, window_eq, h]
    omega

/-- The accumulating scatter at element i: the operand's element plus the updates whose index word reads i. -/
theorem scatterAdd_apply (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (dims wf) x idx upd i
      = x i + ∑ j : (⟨1, ![M]⟩ : Shape).Idx, if (idx (ix2 (j 0) 0)).toInt = ((i 0).val : Int) then upd j else 0 := by
  unfold Ideal.hostScatterAdd
  rw [Finset.sum_filter]
  congr 1
  refine Finset.sum_congr rfl fun j _ => ?_
  simp only [resultIdx_iff]

end Cert.Lib.ScatterCount

end
-- ==== Proof.RefLayers.lean ====
/-
  The two graph-convolution layers of the reference program, as whole-array functions: each layer's output is the
  clamped sum of the aggregated neighbour rows times the node's factor, the node's own row times the square of its
  factor, and a bias row. The reference scales every message by both endpoint factors before adding it; that is the
  aggregate of the once-scaled rows multiplied by the destination's factor afterwards, because every factor is a
  nonnegative real number (the reciprocal root of one plus a count).
-/
import proofs.«174452_j12352325943369_2_alg».proof.Proof.Gen.ReferenceIdeal.Read
import proofs.«174452_j12352325943369_2_alg».proof.Proof.GcnSpec
import proofs.«174452_j12352325943369_2_alg».proof.Proof.LibMatProd
import proofs.«174452_j12352325943369_2_alg».proof.Proof.LibGcnAggregate
import proofs.«174452_j12352325943369_2_alg».proof.Proof.LibScatterCount
import proofs.«174452_j12352325943369_2_alg».proof.Proof.LibScatterRows
import proofs.«174452_j12352325943369_2_alg».proof.Proof.LibRowGather
import proofs.«174452_j12352325943369_2_alg».proof.Proof.LibVecGather
import proofs.«174452_j12352325943369_2_alg».proof.Proof.LibRowReductions
import proofs.«174452_j12352325943369_2_alg».proof.Proof.LibRowVector
import proofs.«174452_j12352325943369_2_alg».proof.Proof.LibColumnVector

open scoped BigOperators

noncomputable section

namespace Cert.ReferenceIdeal.RefLayers

open Cert.ReferenceIdeal Cert.ReferenceIdeal.Gen Cert.ReferenceIdeal.Read Idealize.ShloMosaic Idealize.ShloMosaic.ValueIdx
open Cert.Lib.MatProd Cert.Lib.RowVector Cert.Lib.ColumnVector Cert.Lib.GcnAggregate Cert.Gcn
open Cert.Lib.RowGather Cert.Lib.VecGather

/-! ## The factors are nonnegative reals -/

/-- The word of the single-precision 1.0 is the real number 1. -/
theorem ofBits_one_f32 : Ideal.ofBits .f32 0x3F800000#32 = ((1 : ℝ) : EReal) := by
  simp [Ideal.ofBits, Ideal.ieee, -EReal.coe_mul]; norm_num

/-- A finite sum whose every term is 1 or 0 is a nonnegative real number. -/
theorem sum_ite_one_real {ι : Type} (s : Finset ι) (c : ι → Prop) [DecidablePred c] :
    ∃ r : ℝ, 0 ≤ r ∧ (∑ j ∈ s, if c j then ((1 : ℝ) : EReal) else 0) = (r : EReal) := by
  classical
  induction s using Finset.induction_on with
  | empty => exact ⟨0, le_refl _, by simp⟩
  | insert a s ha ih =>
    obtain ⟨r, hr, e⟩ := ih
    rw [Finset.sum_insert ha, e]
    by_cases h : c a
    · rw [if_pos h]; exact ⟨1 + r, by linarith, by rw [EReal.coe_add]⟩
    · rw [if_neg h, zero_add]; exact ⟨r, hr, rfl⟩

/-- Every factor is the reciprocal root of one plus a count of destination words: a nonnegative real number. -/
theorem dinv_real (x1 : (⟨S2x800000, .i32⟩ : BufTy).Contents (Elt Ideal)) (p : Fin 100000) :
    0 ≤ val_main_v11 (F := Ideal) x1 (ix1 p) ∧ val_main_v11 (F := Ideal) x1 (ix1 p) ≠ ⊤ := by
  have h8 : ∃ r : ℝ, 0 ≤ r ∧ val_main_v8 (F := Ideal) x1 (ix1 p) = (r : EReal) := by
    have e8 : val_main_v8 (F := Ideal) x1
        = Ideal.hostScatterAdd (Cert.Lib.ScatterCount.dims scatter_S100000_S800000x1_S800000_n_0_0_1_wf)
            (val_main_v6 (F := Ideal)) (val_main_v7 (F := Ideal) x1) (val_main_v5 (F := Ideal)) := rfl
    rw [e8, Cert.Lib.ScatterCount.scatterAdd_apply]
    have h6 : val_main_v6 (F := Ideal) (ix1 p) = 0 := by
      rw [val_main_v6_apply, val_main_cst_0_apply]; exact Ideal.ofBits_zero_f32
    have h5 : ∀ j, val_main_v5 (F := Ideal) j = ((1 : ℝ) : EReal) := fun j => by
      rw [val_main_v5_apply, val_main_cst_apply]; exact ofBits_one_f32
    simp only [h5]
    rw [h6, zero_add]
    exact sum_ite_one_real _ _
  obtain ⟨r, hr, e⟩ := h8
  have h11 : val_main_v11 (F := Ideal) x1 (ix1 p) = Ideal.rsqrt (((r + 1 : ℝ)) : EReal) := by
    rw [val_main_v11_apply, val_main_v10_apply, e, val_main_v9_apply, val_main_cst_1_apply]
    show Ideal.rsqrt ((r : EReal) + Ideal.ofBits .f32 0x3F800000#32) = _
    rw [ofBits_one_f32, ← EReal.coe_add]
  rw [h11, Ideal.rsqrt_coe, if_neg (by linarith), if_neg (ne_of_gt (by linarith))]
  exact ⟨EReal.coe_nonneg.mpr (inv_nonneg.mpr (Real.sqrt_nonneg _)), EReal.coe_ne_top _⟩

/-! ## The index columns -/

/-- A vector of words as a column. -/
def plainCol (w : IVec S800000 32) : IVec S800000x1 32 :=
  broadcastInDim S800000x1 ![0] bcast_S800000_S800000x1_0 w

/-- A vector of words, every negative word moved up by the number of rows, as a column. -/
def wrapCol (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 100000#32))) w)

theorem plainCol_apply (w : IVec S800000 32) (r : Fin 800000) : plainCol w (ix2 r 0) = w (ix1 r) :=
  Cert.Lib.RowReductions.bcastInDim_col_apply _ _ r

theorem wrapCol_apply (w : IVec S800000 32) (r : Fin 800000) :
    wrapCol w (ix2 r 0)
      = Scalar.select (IntOp.cmpi .slt (w (ix1 r)) 0#32) (IntOp.addi (w (ix1 r)) 100000#32) (w (ix1 r)) := by
  rw [wrapCol, Cert.Lib.RowReductions.bcastInDim_col_apply, select_apply]
  refine congrArg₂ (fun a b => Scalar.select a b (w (ix1 r))) ?_ ?_
  · exact congrArg (IntOp.cmpi .slt (w (ix1 r))) (Cert.Lib.RowVector.bcastInDim_scalar_apply _ _ _)
  · exact congrArg (IntOp.addi (w (ix1 r))) (Cert.Lib.RowVector.bcastInDim_scalar_apply _ _ _)

/-- A word that reads row p is not moved, and selects row p. -/
theorem wrapCol_row (w : IVec S800000 32) (r : Fin 800000) (p : Fin 100000)
    (h : (plainCol w (ix2 r 0)).toInt = (p.val : Int)) :
    rowOf 100000 (by decide) (wrapCol w (ix2 r 0)) = p := by
  rw [plainCol_apply] at h
  rw [wrapCol_apply, wrap_of_nonneg _ _ (by rw [h]; exact Int.natCast_nonneg _)]
  exact rowOf_of_toInt (by decide) _ p h

/-! ## The pieces of one layer -/

/-- An array of zero words. -/
def zeros : FVec Ideal S100000x128 .f32 :=
  broadcastInDim S100000x128 ![] bcast_S_S100000x128 (constant (F := Ideal) S_ .f32 0x00000000#32)

theorem zeros_apply (i : S100000x128.Idx) : zeros i = zeroW :=
  Cert.Lib.RowVector.bcastInDim_scalar_apply _ _ i

/-- The squared factors, one per row, repeated across the row. -/
def sqCol (d : FVec Ideal S100000 .f32) : FVec Ideal S100000x128 .f32 :=
  broadcastInDim S100000x128 ![0, 1] bcast_S100000x1_S100000x128_0_1
    (broadcastInDim S100000x1 ![0] bcast_S100000_S100000x1_0 (mulf d d))

theorem sqCol_apply (d : FVec Ideal S100000 .f32) (p : Fin 100000) (q : Fin 128) :
    sqCol d (ix2 p q) = d (ix1 p) * d (ix1 p) := by
  rw [sqCol, Cert.Lib.RowReductions.bcastInDim_cols_apply, Cert.Lib.RowReductions.bcastInDim_col_apply, mulf_apply]

/-- The bias vector repeated down the rows. -/
def biasB (b : FVec Ideal S128 .f32) : FVec Ideal S100000x128 .f32 :=
  broadcastInDim S100000x128 ![0, 1] bcast_S1x128_S100000x128_0_1 (broadcastInDim S1x128 ![1] bcast_S128_S1x128_1 b)

theorem biasB_apply (b : FVec Ideal S128 .f32) (p : Fin 100000) (q : Fin 128) :
    biasB b (ix2 p q) = asRow b (ix2 0 q) := by
  rw [biasB, bcastInDim_rows_apply, bcastInDim_eq_asRow]

/-- The product of the two endpoint factors of every edge, repeated across the edge's row. -/
def normCol (d : FVec Ideal S100000 .f32) (w1 w3 : IVec S800000 32) : FVec Ideal S800000x128 .f32 :=
  broadcastInDim S800000x128 ![0, 1] bcast_S800000x1_S800000x128_0_1
    (broadcastInDim S800000x1 ![0] bcast_S800000_S800000x1_0
      (mulf (Host.gather (vecDims 100000 800000 gather_S100000_S800000x1_S800000_n_0_n_n_0_1_1_wf) d (wrapCol w1))
        (Host.gather (vecDims 100000 800000 gather_S100000_S800000x1_S800000_n_0_n_n_0_1_1_wf) d (wrapCol w3))))

theorem normCol_apply (d : FVec Ideal S100000 .f32) (w1 w3 : IVec S800000 32) (r : Fin 800000) (q : Fin 128) :
    normCol d w1 w3 (ix2 r q)
      = d (ix1 (rowOf 100000 (by decide) (wrapCol w1 (ix2 r 0)))) * d (ix1 (rowOf 100000 (by decide) (wrapCol w3 (ix2 r 0)))) := by
  rw [normCol, Cert.Lib.RowReductions.bcastInDim_cols_apply, Cert.Lib.RowReductions.bcastInDim_col_apply, mulf_apply,
    gather_vec_apply (by decide), gather_vec_apply (by decide)]

/-- The messages: the rows of H gathered at the wrapped source words, each scaled by its edge's factor product. -/
def msgs (H : FVec Ideal S100000x128 .f32) (d : FVec Ideal S100000 .f32) (w1 w3 : IVec S800000 32) :
    FVec Ideal S800000x128 .f32 :=
  mulf (Host.gather (rowsDims 100000 800000 128 gather_S100000x128_S800000x1_S800000x128_1_0_n_n_0_1_1128_wf) H (wrapCol w1)) (normCol d w1 w3)

theorem msgs_apply (H : FVec Ideal S100000x128 .f32) (d : FVec Ideal S100000 .f32) (w1 w3 : IVec S800000 32)
    (r : Fin 800000) (q : Fin 128) :
    msgs H d w1 w3 (ix2 r q)
      = H (ix2 (rowOf 100000 (by decide) (wrapCol w1 (ix2 r 0))) q)
        * (d (ix1 (rowOf 100000 (by decide) (wrapCol w1 (ix2 r 0)))) * d (ix1 (rowOf 100000 (by decide) (wrapCol w3 (ix2 r 0))))) := by
  rw [msgs, mulf_apply, gather_rows_apply (by decide), normCol_apply]

/-! ## One layer as a function of its operands -/

/-- One layer of the reference program: the messages added into the rows the destination words read, from zeros;
    plus H times the squared factors; plus the bias row; clamped below at zero. -/
def layerProg (H : FVec Ideal S100000x128 .f32) (d : FVec Ideal S100000 .f32) (w1 w3 : IVec S800000 32)
    (b : FVec Ideal S128 .f32) : FVec Ideal S100000x128 .f32 :=
  maximumf
    (addf
      (addf (Ideal.hostScatterAdd (Cert.Lib.ScatterRows.dims scatter_S100000x128_S800000x1_S800000x128_1_0_0_1_wf) zeros (plainCol w3) (msgs H d w1 w3))
        (mulf H (sqCol d)))
      (biasB b))
    zeros

/-- An entry of the combination, read at explicit coordinates. -/
theorem combine_apply {r n : Nat} (A H : (⟨2, ![r, n]⟩ : Shape).Idx → EReal) (dc : (⟨2, ![r, 1]⟩ : Shape).Idx → EReal)
    (b : (⟨2, ![1, n]⟩ : Shape).Idx → EReal) (p : Fin r) (q : Fin n) :
    combine A H dc b (ix2 p q)
      = max ((A (ix2 p q) * dc (ix2 p 0) + H (ix2 p q) * (dc (ix2 p 0) * dc (ix2 p 0))) + b (ix2 0 q)) zeroW := rfl

/-- One layer is the combination of the aggregate of the once-scaled rows, the rows themselves, the factors and the
    bias row: the messages scaled by both endpoint factors and added are the once-scaled messages added and then
    multiplied by the destination's factor, every factor being a nonnegative real number. -/
theorem layer_eq (H : FVec Ideal S100000x128 .f32) (d : FVec Ideal S100000 .f32)
    (hd : ∀ p : Fin 100000, 0 ≤ d (ix1 p) ∧ d (ix1 p) ≠ ⊤) (w1 w3 : IVec S800000 32) (b : FVec Ideal S128 .f32) :
    layerProg H d w1 w3 b
      = combine (aggregate scatter_S100000x128_S800000x1_S800000x128_1_0_0_1_wf gather_S100000x128_S800000x1_S800000x128_1_0_n_n_0_1_1128_wf bcast_S_S100000x128 (scaleRows H (asCol d)) (wrapCol w1) (plainCol w3))
          H (asCol d) (asRow b) := by
  funext i
  obtain ⟨p, q, rfl⟩ : ∃ (p : Fin 100000) (q : Fin 128), i = ix2 p q := ⟨i 0, i 1, eq_ix2 i⟩
  have hA : aggregate scatter_S100000x128_S800000x1_S800000x128_1_0_0_1_wf gather_S100000x128_S800000x1_S800000x128_1_0_n_n_0_1_1128_wf bcast_S_S100000x128 (scaleRows H (asCol d)) (wrapCol w1) (plainCol w3)
      = Ideal.hostScatterAdd (Cert.Lib.ScatterRows.dims scatter_S100000x128_S800000x1_S800000x128_1_0_0_1_wf) zeros (plainCol w3)
          (Host.gather (rowsDims 100000 800000 128 gather_S100000x128_S800000x1_S800000x128_1_0_n_n_0_1_1128_wf) (scaleRows H (asCol d)) (wrapCol w1)) := rfl
  have hscale := aggregate_scale scatter_S100000x128_S800000x1_S800000x128_1_0_0_1_wf H d
    (fun r => rowOf 100000 (by decide) (wrapCol w1 (ix2 r 0)))
    (fun r => rowOf 100000 (by decide) (wrapCol w3 (ix2 r 0))) (plainCol w3) hd
    (fun r p h => wrapCol_row w3 r p h) zeros (fun i => (zeros_apply i).trans Ideal.ofBits_zero_f32)
    (Host.gather (rowsDims 100000 800000 128 gather_S100000x128_S800000x1_S800000x128_1_0_n_n_0_1_1128_wf) (scaleRows H (asCol d)) (wrapCol w1)) (msgs H d w1 w3)
    (fun r q => (gather_rows_apply (by decide) _ _ _ r q).trans rfl)
    (fun r q => msgs_apply H d w1 w3 r q) p q
  rw [layerProg, maximumf_apply, addf_apply, addf_apply, mulf_apply, sqCol_apply, biasB_apply, zeros_apply,
    combine_apply, asCol_apply, hA, hscale]

theorem layer1_prog (x0 : (⟨S100000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) :
    val_main_v48 (F := Ideal) x0 x1 x3 x4
      = layerProg (val_main_v4 (F := Ideal) x0 x3) (val_main_v11 (F := Ideal) x1) (val_main_v1 (F := Ideal) x1)
          (val_main_v3 (F := Ideal) x1) x4 := rfl

theorem layer2_prog (x0 : (⟨S100000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v93 (F := Ideal) x0 x1 x3 x4 x5 x6
      = layerProg (val_main_v49 (F := Ideal) x0 x1 x3 x4 x5) (val_main_v56 (F := Ideal) x1) (val_main_v1 (F := Ideal) x1)
          (val_main_v3 (F := Ideal) x1) x6 := rfl

/-- The second layer's factors are the first layer's. -/
theorem dinv2_eq (x1 : (⟨S2x800000, .i32⟩ : BufTy).Contents (Elt Ideal)) : val_main_v56 (F := Ideal) x1 = val_main_v11 (F := Ideal) x1 := rfl

/-- The first layer of the reference program. -/
theorem ref_layer1 (x0 : (⟨S100000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) :
    val_main_v48 (F := Ideal) x0 x1 x3 x4
      = combine (aggregate scatter_S100000x128_S800000x1_S800000x128_1_0_0_1_wf
            gather_S100000x128_S800000x1_S800000x128_1_0_n_n_0_1_1128_wf bcast_S_S100000x128
            (scaleRows (matProd x0 x3) (asCol (val_main_v11 (F := Ideal) x1)))
            (val_main_v32 (F := Ideal) x1) (val_main_v38 (F := Ideal) x1))
          (matProd x0 x3) (asCol (val_main_v11 (F := Ideal) x1)) (asRow x4) := by
  have h4 : val_main_v4 (F := Ideal) x0 x3 = matProd x0 x3 :=
    dotGeneral_eq_matProd dot_S100000x64_S64x128_S100000x128_1_0_0_1_n_n rfl rfl rfl rfl rfl rfl none .single x0 x3
  rw [← h4, layer1_prog]
  exact layer_eq _ _ (dinv_real x1) _ _ _

/-- The second layer of the reference program. -/
theorem ref_layer2 (x0 : (⟨S100000x64, .f32⟩ : BufTy).Contents (Elt Ideal)) (x1 : (⟨S2x800000, .i32⟩ : BufTy).Contents (Elt Ideal))
    (x3 : (⟨S64x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) :
    val_main_v93 (F := Ideal) x0 x1 x3 x4 x5 x6
      = combine (aggregate scatter_S100000x128_S800000x1_S800000x128_1_0_0_1_wf
            gather_S100000x128_S800000x1_S800000x128_1_0_n_n_0_1_1128_wf bcast_S_S100000x128
            (scaleRows (matProd (val_main_v48 (F := Ideal) x0 x1 x3 x4) x5) (asCol (val_main_v56 (F := Ideal) x1)))
            (val_main_v77 (F := Ideal) x1) (val_main_v83 (F := Ideal) x1))
          (matProd (val_main_v48 (F := Ideal) x0 x1 x3 x4) x5) (asCol (val_main_v56 (F := Ideal) x1)) (asRow x6) := by
  have h49 : val_main_v49 (F := Ideal) x0 x1 x3 x4 x5 = matProd (val_main_v48 (F := Ideal) x0 x1 x3 x4) x5 :=
    dotGeneral_eq_matProd dot_S100000x128_S128x128_S100000x128_1_0_0_1_n_n rfl rfl rfl rfl rfl rfl none .single _ x5
  rw [← h49, layer2_prog]
  exact layer_eq _ _ (fun p => by rw [dinv2_eq]; exact dinv_real x1 p) _ _ _

end Cert.ReferenceIdeal.RefLayers

end
-- ==== Proof.Bridge.lean ====
/-
  The idealized kernel program's result function of the arguments is the reference program's last stage. Layer by
  layer: x·W1 is the same product; the kernel's layer output (source rows scaled once, aggregated, the aggregate
  multiplied by the destination's factor) is the reference's (every message scaled by both endpoint factors) by the
  aggregation law, the factors being nonnegative reals; equal layer outputs give equal second-layer products and,
  by the same law, equal second-layer outputs; the pool is the same operations of equal arrays; and the head is
  the same function of equal pooled arrays, a vector re-shaped to a row being the vector broadcast to a row.
-/
import proofs.«174452_j12352325943369_2_alg».proof.Proof.KernelStages
import proofs.«174452_j12352325943369_2_alg».proof.Proof.RefHead
import proofs.«174452_j12352325943369_2_alg».proof.Proof.RefLayers
import proofs.«174452_j12352325943369_2_alg».proof.Proof.LibRowVector
import proofs.«174452_j12352325943369_2_alg».proof.Proof.LibColumnVector

set_option maxRecDepth 16384

noncomputable section

namespace Cert.Bridge

open Idealize.ShloMosaic Idealize.ShloMosaic.ValueIdx
open Cert.Lib.MatProd Cert.Lib.RowVector Cert.Lib.ColumnVector Cert.Lib.GcnAggregate Cert.Gcn
open Cert.KernelIdeal.Stages Cert.ReferenceIdeal.Read Cert.ReferenceIdeal.RefHead Cert.ReferenceIdeal.RefLayers

variable (x0 : (⟨2, ![100000, 64]⟩ : Shape).Idx → EReal) (x1 : (⟨2, ![2, 800000]⟩ : Shape).Idx → BitVec 32) (x2 : (⟨1, ![100000]⟩ : Shape).Idx → BitVec 32) (x3 : (⟨2, ![64, 128]⟩ : Shape).Idx → EReal) (x4 : (⟨1, ![128]⟩ : Shape).Idx → EReal) (x5 : (⟨2, ![128, 128]⟩ : Shape).Idx → EReal) (x6 : (⟨1, ![128]⟩ : Shape).Idx → EReal)
  (x7 : (⟨2, ![128, 128]⟩ : Shape).Idx → EReal) (x8 x9 x10 : (⟨1, ![128]⟩ : Shape).Idx → EReal)

/-- A vector re-shaped to a row is the vector as a row. -/
theorem kB_eq (x : (⟨1, ![128]⟩ : Shape).Idx → EReal) : kB x = asRow x := shapeCast_eq_asRow x _

/-- The kernel's factor column is the reference's factor vector as a column (either copy of it). -/
theorem kDcol_eq11 : kDcol x1 = asCol (val_main_v11 (F := Ideal) x1) := shapeCast_eq_asCol _ _
theorem kDcol_eq56 : kDcol x1 = asCol (val_main_v56 (F := Ideal) x1) := shapeCast_eq_asCol _ _

/-- The kernel's aggregate is the one-factor aggregate at the reference's index columns (either copy of them). -/
theorem kAgg_eq1 (HS : (⟨2, ![100000, 128]⟩ : Shape).Idx → EReal) :
    kAgg HS x1 = aggregate Cert.ReferenceIdeal.Facts₀.scatter_S100000x128_S800000x1_S800000x128_1_0_0_1_wf
      Cert.ReferenceIdeal.Facts₀.gather_S100000x128_S800000x1_S800000x128_1_0_n_n_0_1_1128_wf Cert.ReferenceIdeal.Facts₀.bcast_S_S100000x128
      HS (val_main_v32 (F := Ideal) x1) (val_main_v38 (F := Ideal) x1) := rfl
theorem kAgg_eq2 (HS : (⟨2, ![100000, 128]⟩ : Shape).Idx → EReal) :
    kAgg HS x1 = aggregate Cert.ReferenceIdeal.Facts₀.scatter_S100000x128_S800000x1_S800000x128_1_0_0_1_wf
      Cert.ReferenceIdeal.Facts₀.gather_S100000x128_S800000x1_S800000x128_1_0_n_n_0_1_1128_wf Cert.ReferenceIdeal.Facts₀.bcast_S_S100000x128
      HS (val_main_v77 (F := Ideal) x1) (val_main_v83 (F := Ideal) x1) := rfl

/-- The first layer's outputs agree. -/
theorem layer1 : kC1 x0 x1 x3 x4 = val_main_v48 (F := Ideal) x0 x1 x3 x4 := by
  rw [ref_layer1]
  unfold kC1 kHS1 kH1
  rw [kAgg_eq1, kDcol_eq11, kB_eq]

/-- The second layer's outputs agree. -/
theorem layer2 : kC2 x0 x1 x3 x4 x5 x6 = val_main_v93 (F := Ideal) x0 x1 x3 x4 x5 x6 := by
  rw [ref_layer2]
  unfold kC2 kHS2 kH2
  rw [layer1, kAgg_eq2, kDcol_eq56, kB_eq]

/-- The pooled arrays agree: the same operations of equal arrays. -/
theorem pool : kPool x2 (kC2 x0 x1 x3 x4 x5 x6) = val_main_v105 (F := Ideal) x0 x1 x2 x3 x4 x5 x6 := by
  rw [layer2]
  rfl

/-- The results agree. -/
theorem result : kOut x0 x1 x2 x3 x4 x5 x6 x7 x8 x9 x10 = val_main_v133 (F := Ideal) x0 x1 x2 x3 x4 x5 x6 x7 x8 x9 x10 := by
  rw [ref_head]
  unfold kOut
  rw [pool, kB_eq, kB_eq, kB_eq]

end Cert.Bridge

end
-- ==== Proof.lean ====
/-
  The certificate of a two-layer graph convolution with mean pooling and a normalised linear head: a kernel program of
  four kernel regions among host gathers and scatter-adds, against a plain host reference.

  Both idealized programs compute, on the extended reals, d = 1/√(in-degree + 1) per node, two layers
  relu(Σ_{e into p} H(src e)·d(src e)·d(p) + H(p)·d(p)² + b) with H = x·W1 and then the first layer's output times W2,
  the mean of the second layer's rows per graph, and a linear head whose rows are normalised by their mean and mean
  squared deviation. They differ in one grouping only: the reference scales each message by d(src e)·d(dst e) before
  it adds the messages into their destination rows, the kernel scales each source row by d once, adds, and
  multiplies the destination's aggregated row by d(p) afterwards. A message is added into row p exactly when its
  destination is p, and d(p) is a nonnegative real number (the in-degree plus one is at least one), so the finite
  sum takes the factor d(p) term by term; nothing else about the inputs' finiteness is used.

  The kernel's value is read off its frame certificate: each region's output arrays are whole-array functions of the
  region's entry contents (block t of an output is that function read through the block, and the blocks cover the
  array), and each host stretch's buffers are its operations of the previous boundary's. The reference's value is its
  generated run, read stage by stage.
-/
import proofs.«174452_j12352325943369_2_alg».proof.Defs
import proofs.«174452_j12352325943369_2_alg».proof.Proof.Gen.Kernel
import proofs.«174452_j12352325943369_2_alg».proof.Proof.Gen.KernelIdeal
import proofs.«174452_j12352325943369_2_alg».proof.Proof.Gen.ReferenceIdeal
import proofs.«174452_j12352325943369_2_alg».proof.Proof.Gen.ReferenceIdeal.Run
import proofs.«174452_j12352325943369_2_alg».proof.Proof.Gen.ReferenceIdeal.Read
import proofs.«174452_j12352325943369_2_alg».proof.Proof.Gen.Pre_finite_inputs
import proofs.«174452_j12352325943369_2_alg».proof.Proof.PatchedKernelFrame
import proofs.«174452_j12352325943369_2_alg».proof.Proof.PatchedKernelIdealFrame
import proofs.«174452_j12352325943369_2_alg».proof.Proof.KernelRun
import proofs.«174452_j12352325943369_2_alg».proof.Proof.KernelValue
import proofs.«174452_j12352325943369_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The three frames: the two kernel programs' by their frame certificates, the reference's by its run with the
    result dropped. -/
theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values both programs end with the same result: the kernel's run ends at its result function of the
    arguments, the reference's at its last stage, and the two are one function of arguments that agree. -/
theorem algebraic : Cert.algebraic_KernelIdeal_ReferenceIdeal := by
  intro m ρ m' ρ' _ hagree
  refine ⟨fun c => Cert.KernelIdeal.Stages.kOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Stages.W8_v54 m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.Read.val_main_v133_eq, h0, h1, h2, h3, h4, h5, h6, h7, h8, h9, h10]
    exact (Cert.Bridge.result _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
